-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x128 .f32) (main_arg6 : FVec F S128 .f32) (main_arg7 : FVec F S256x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 59
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x256, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .bf16⟩
  | .hbm, ⟨35, _⟩ => ⟨S800000x256, .f32⟩
  | .hbm, ⟨36, _⟩ => ⟨S_, .f32⟩
  | .hbm, ⟨37, _⟩ => ⟨S50000x256, .f32⟩
  | .hbm, ⟨38, _⟩ => ⟨S800000x1, .i32⟩
  | .hbm, ⟨39, _⟩ => ⟨S50000x256, .f32⟩
  | .hbm, ⟨40, _⟩ => ⟨S1x256, .f32⟩
  | .hbm, ⟨41, _⟩ => ⟨S50000x256, .bf16⟩
  | .hbm, ⟨42, _⟩ => ⟨S50000x128, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .bf16⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .bf16⟩
  | .local _ .vmem, ⟨5, _⟩ => ⟨S2000x256, .bf16⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S256x128, .f32⟩
  | .local _ .vmem, ⟨10, _⟩ => ⟨S2000x256, .bf16⟩
  | .local _ .vmem, ⟨11, _⟩ => ⟨S2000x256, .bf16⟩
  | .local _ .vmem, ⟨12, _⟩ => ⟨S2000x128, .bf16⟩
  | .local _ .vmem, ⟨13, _⟩ => ⟨S2000x128, .bf16⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x256, .bf16⟩
  | .local _ .vmem, ⟨19, _⟩ => ⟨S2000x256, .bf16⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .bf16 = 32 ∨ (Rect.block (s := S50000x256) S2000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .bf16 = 32 ∨ (Rect.block (s := S50000x128) S2000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v24) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S50000x128 : Shape := ⟨2, ![50000, 128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.FiniteInputs.lean ====
/-
  Every float input is finite: what the precondition gives at the ideal instance.

  The precondition computes, for each of the seven float arguments a, the bit "every entry of |a| is below +∞",
  and conjoins the seven bits. At the ideal instance a float is an extended real; |x| is max x (-x), the word
  0x7F800000 denotes ⊤, and max x (-x) < ⊤ fails exactly at x = ⊤ and x = ⊥. So the conjunction being 1 says that
  every entry of every float argument is a real number.
-/
import proofs.«175912_j5995774346006_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx

/-- The f32 word with exponent all ones and significand zero, sign clear, denotes +∞. -/
theorem ofBits_inf : Ideal.ofBits .f32 0x7F800000#32 = (⊤ : EReal) := by
  simp [Ideal.ofBits, Ideal.ieee]

/-- One value: if |x| < +∞ holds as a comparison bit, then x is a real number. On the extended reals
    |x| = max x (-x); at x = ⊤ this is ⊤, at x = ⊥ it is max ⊥ ⊤ = ⊤, and ⊤ < ⊤ is false. -/
theorem real_of_abs_lt_inf (x : Ideal .f32)
    (h : FloatOps.cmpf .olt (FloatOps.hostAbsf x) (Ideal.ofBits .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  induction x using EReal.rec with
  | bot => simp at h
  | coe r => exact ⟨r, rfl⟩
  | top => simp at h

/-- The scalar shape has one index. -/
instance : Subsingleton Cert.Pre_finite_inputs.S_.Idx := ⟨fun a b => funext fun d => d.elim0⟩

/-- One array, any shape: if the conjunction over all entries of the bits |a i| < +∞ is 1, every entry is real. -/
theorem reals_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf a)
            (broadcastInDim S ![] hb (constant (F := Ideal) Cert.Pre_finite_inputs.S_ .f32 0x7F800000#32)))
          init hr hu ix0 = 1#1) :
    ∀ i, ∃ r : ℝ, a i = (r : EReal) := by
  intro i
  have hi := Host.reduce_andi_all _ init hr hu ix0 e i
  exact real_of_abs_lt_inf (a i) hi

open Cert.Pre_finite_inputs in
theorem reals_of_finite [Cert.Pre_finite_inputs.Facts]
    (a0 : FVec Ideal S50000x256 .f32) (a1 : IVec S2x800000 32) (a2 : FVec Ideal S256x256 .f32) (a3 : FVec Ideal S256 .f32)
    (a4 : FVec Ideal S256x256 .f32) (a5 : FVec Ideal S256x128 .f32) (a6 : FVec Ideal S128 .f32) (a7 : FVec Ideal S256x128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal)) := by
  have h0 := congrFun h ix0
  unfold Cert.Pre_finite_inputs.fn Cert.Pre_finite_inputs.fn_part1 at h0
  dsimp only at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨reals_of_all a0 _ _ _ _ e0, reals_of_all a2 _ _ _ _ e2, reals_of_all a3 _ _ _ _ e3,
    reals_of_all a4 _ _ _ _ e4, reals_of_all a5 _ _ _ _ e5, reals_of_all a6 _ _ _ _ e6,
    reals_of_all a7 _ _ _ _ e7⟩

end Cert.FiniteInputs

end
-- ==== Proof.Spec.lean ====
/-
  The mathematics of the two programs, index by index, over the extended reals.

  A two-layer mean-aggregating graph convolution on 50000 nodes and 800000 edges. An edge `e` has a source row
  `row e` (its source index read signed and clamped into the node range, as a row gather reads it) and a target
  given by the signed value of its target index; `seg r f` sums `f e` over the edges whose target is node `r`
  (an edge whose target is no node contributes to no row). With `c r = max (number of edges into r) 1`:

    layer 1   h r j   = max (((Σ_k (A r k · (1 / c r)) · W1l k j) + Σ_k x r k · W1r k j) + b1 j) 0,   A r k = seg r (x (row ·) k)
    layer 2   out r j = logistic (((seg r (Σ_k h (row ·) k · W2l k j)) · (1 / c r) + b2 j) + Σ_k h r k · W2r k j)

  is the value `G` the tiled program computes: it multiplies by the reciprocal of the count and projects the hidden
  rows through `W2l` BEFORE aggregating them. The plain program divides by the count, adds the bias before the
  second product, and aggregates the hidden rows before projecting them (`GR`). The two agree wherever the float
  inputs are real numbers (Proof/Algebra.lean): that is where a finite sum may be exchanged with a product.
-/
import Idealize.ShloMosaic.PureOps.Ideal
import Idealize.ShloMosaic.Lib.ValueIdx

noncomputable section

open scoped BigOperators

namespace Cert.Sage

open Idealize.ShloMosaic Idealize.ShloMosaic.ValueIdx

/-- Node features and hidden rows, [50000, 256]. -/
abbrev NodeIdx := (⟨2, ![50000, 256]⟩ : Shape).Idx
/-- Projected rows and the result, [50000, 128]. -/
abbrev OutIdx := (⟨2, ![50000, 128]⟩ : Shape).Idx
/-- One integer per edge, [800000, 1]. -/
abbrev EdgeIdx := (⟨2, ![800000, 1]⟩ : Shape).Idx

section
variable (x : NodeIdx → EReal) (srcI dstI : EdgeIdx → BitVec 32)
  (W1l : (⟨2, ![256, 256]⟩ : Shape).Idx → EReal) (b1 : (⟨1, ![256]⟩ : Shape).Idx → EReal)
  (W1r : (⟨2, ![256, 256]⟩ : Shape).Idx → EReal) (W2l : (⟨2, ![256, 128]⟩ : Shape).Idx → EReal)
  (b2 : (⟨1, ![128]⟩ : Shape).Idx → EReal) (W2r : (⟨2, ![256, 128]⟩ : Shape).Idx → EReal)

/-- The source row of edge `e`: its source index read signed and clamped into `[0, 49999]`. -/
def row (e : Fin 800000) : Fin 50000 := ⟨min (srcI (ix2 e 0)).toInt.toNat (50000 - 1), by omega⟩

/-- The sum of `f` over the edges whose target is node `r`. -/
def seg (r : Fin 50000) (f : Fin 800000 → EReal) : EReal :=
  ∑ e : Fin 800000, if (dstI (ix2 e 0)).toInt = (r.val : ℤ) then f e else 0

/-- The number of edges into node `r`, at least one. -/
def cmax (r : Fin 50000) : EReal := max (seg dstI r fun _ => 1) 1

/-- The sum of the source rows of the edges into `r`, column `k`. -/
def agg1 (r : Fin 50000) (k : Fin 256) : EReal := seg dstI r fun e => x (ix2 (row srcI e) k)

/-- Layer 1 as the tiled program computes it: the aggregate times the reciprocal count. -/
def hidAt (r : Fin 50000) (j : Fin 256) : EReal :=
  max (((∑ k : Fin 256, (agg1 x srcI dstI r k * Ideal.div 1 (cmax dstI r)) * W1l (ix2 k j))
    + ∑ k : Fin 256, x (ix2 r k) * W1r (ix2 k j)) + b1 (ix1 j)) 0

/-- Layer 2 as the tiled program computes it: project each hidden row, aggregate, scale. -/
def outAt (r : Fin 50000) (j : Fin 128) : EReal :=
  Ideal.logistic (((seg dstI r fun e => ∑ k : Fin 256, hidAt x srcI dstI W1l b1 W1r (row srcI e) k * W2l (ix2 k j))
      * Ideal.div 1 (cmax dstI r) + b2 (ix1 j))
    + ∑ k : Fin 256, hidAt x srcI dstI W1l b1 W1r r k * W2r (ix2 k j))

/-- The tiled program's result. -/
def G : OutIdx → EReal := fun i => outAt x srcI dstI W1l b1 W1r W2l b2 W2r (i 0) (i 1)

/-- Layer 1 as the plain program computes it: the aggregate divided by the count, the bias added first. -/
def hidRAt (r : Fin 50000) (j : Fin 256) : EReal :=
  max (((∑ k : Fin 256, Ideal.div (agg1 x srcI dstI r k) (cmax dstI r) * W1l (ix2 k j)) + b1 (ix1 j))
    + ∑ k : Fin 256, x (ix2 r k) * W1r (ix2 k j)) 0

/-- Layer 2 as the plain program computes it: aggregate the hidden rows, divide, project. -/
def outRAt (r : Fin 50000) (j : Fin 128) : EReal :=
  Ideal.logistic (((∑ k : Fin 256,
        Ideal.div (seg dstI r fun e => hidRAt x srcI dstI W1l b1 W1r (row srcI e) k) (cmax dstI r) * W2l (ix2 k j))
      + b2 (ix1 j))
    + ∑ k : Fin 256, hidRAt x srcI dstI W1l b1 W1r r k * W2r (ix2 k j))

/-- The plain program's result. -/
def GR : OutIdx → EReal := fun i => outRAt x srcI dstI W1l b1 W1r W2l b2 W2r (i 0) (i 1)

end

end Cert.Sage

end
-- ==== Proof.Algebra.lean ====
/-
  The plain program's value equals the tiled program's value wherever the float inputs are real numbers.

  Three facts carry it. (a) The count of edges into a node, floored at one, is a nonzero real, so dividing by it
  is multiplying by the coercion of its real reciprocal. (b) Every hidden entry is a real: it is a maximum with zero
  of finite sums of products of reals. (c) Over the reals a finite sum may be exchanged with another finite sum and a
  constant factor moved across both: aggregating the hidden rows and then projecting them is projecting each and
  then aggregating.
-/
import proofs.«175912_j5995774346006_2_alg».proof.Proof.Spec

noncomputable section

open scoped BigOperators

namespace Cert.Sage

open Idealize.ShloMosaic Idealize.ShloMosaic.ValueIdx

/-! ## Extended reals that are reals -/

/-- The extended real is the coercion of a real number. -/
def IsReal (v : EReal) : Prop := ∃ r : ℝ, v = (r : EReal)

theorem IsReal.zero : IsReal 0 := ⟨0, rfl⟩

theorem IsReal.one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The maximum of two coerced reals is the coercion of the real maximum. -/
theorem coe_max' (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

theorem IsReal.max {a b : EReal} (ha : IsReal a) (hb : IsReal b) : IsReal (max a b) := by
  obtain ⟨r, rfl⟩ := ha; obtain ⟨s, rfl⟩ := hb; exact ⟨Max.max r s, coe_max' r s⟩

theorem IsReal.ite {p : Prop} [Decidable p] {a b : EReal} (ha : IsReal a) (hb : IsReal b) :
    IsReal (if p then a else b) := by
  split_ifs <;> assumption

/-- A finite sum of coerced reals is the coercion of the real sum. -/
theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-! ## The aggregate and the count -/

section
variable (x : NodeIdx → EReal) (srcI dstI : EdgeIdx → BitVec 32)
  (W1l : (⟨2, ![256, 256]⟩ : Shape).Idx → EReal) (b1 : (⟨1, ![256]⟩ : Shape).Idx → EReal)
  (W1r : (⟨2, ![256, 256]⟩ : Shape).Idx → EReal) (W2l : (⟨2, ![256, 128]⟩ : Shape).Idx → EReal)
  (b2 : (⟨1, ![128]⟩ : Shape).Idx → EReal) (W2r : (⟨2, ![256, 128]⟩ : Shape).Idx → EReal)

/-- The aggregate of coerced reals is the coercion of the real aggregate. -/
theorem seg_coe (r : Fin 50000) (g : Fin 800000 → ℝ) :
    seg dstI r (fun e => (g e : EReal))
      = ((∑ e : Fin 800000, if (dstI (ix2 e 0)).toInt = (r.val : ℤ) then g e else 0 : ℝ) : EReal) := by
  unfold seg
  rw [coe_sum']
  refine Finset.sum_congr rfl fun e _ => ?_
  split_ifs
  · rfl
  · exact EReal.coe_zero.symm

/-- The aggregate of reals is a real. -/
theorem seg_real (r : Fin 50000) (f : Fin 800000 → EReal) (hf : ∀ e, IsReal (f e)) : IsReal (seg dstI r f) := by
  unfold seg
  exact IsReal.sum _ _ fun e _ => IsReal.ite (hf e) IsReal.zero

/-- The count floored at one is a nonzero real (it is at least one). -/
theorem cmax_real (r : Fin 50000) : ∃ c : ℝ, cmax dstI r = (c : EReal) ∧ c ≠ 0 := by
  obtain ⟨s, hs⟩ := seg_real dstI r (fun _ => 1) (fun _ => IsReal.one)
  refine ⟨Max.max s 1, ?_, ?_⟩
  · rw [cmax, hs, ← EReal.coe_one, coe_max']
  · exact ne_of_gt (lt_of_lt_of_le one_pos (le_max_right s 1))

/-! ## Layer 1 -/

/-- The plain program's hidden layer is the tiled program's: dividing by the count is multiplying by its
    reciprocal, and the three summands are added in another order. -/
theorem hidRAt_eq_hidAt : hidRAt x srcI dstI W1l b1 W1r = hidAt x srcI dstI W1l b1 W1r := by
  funext r j
  obtain ⟨c, hc, hc0⟩ := cmax_real dstI r
  simp only [hidRAt, hidAt, hc, Ideal.div_coe hc0, one_mul]
  rw [add_right_comm]

/-- Every hidden entry is a real. -/
theorem hidAt_real (hx : ∀ i, IsReal (x i)) (hW1l : ∀ i, IsReal (W1l i)) (hb1 : ∀ i, IsReal (b1 i))
    (hW1r : ∀ i, IsReal (W1r i)) (r : Fin 50000) (j : Fin 256) :
    IsReal (hidAt x srcI dstI W1l b1 W1r r j) := by
  obtain ⟨c, hc, hc0⟩ := cmax_real dstI r
  unfold hidAt
  rw [hc, Ideal.div_coe hc0, one_mul]
  refine IsReal.max (IsReal.add (IsReal.add ?_ ?_) (hb1 _)) IsReal.zero
  · refine IsReal.sum _ _ fun k _ => IsReal.mul (IsReal.mul ?_ ⟨_, rfl⟩) (hW1l _)
    unfold agg1
    exact seg_real dstI r _ fun e => hx _
  · exact IsReal.sum _ _ fun k _ => IsReal.mul (hx _) (hW1r _)

/-! ## Layer 2 -/

/-- Over the reals: a selected sum over one index set, scaled and weighted, summed over a second index set, is the
    selected sum of the weighted inner sums, scaled. Both finite sums are exchanged and the factor moved across them. -/
theorem real_exchange {α β : Type*} (A : Finset α) (B : Finset β) (p : α → Prop) [DecidablePred p]
    (g : α → β → ℝ) (w : β → ℝ) (s : ℝ) :
    ∑ k ∈ B, (∑ e ∈ A, if p e then g e k else 0) * s * w k
      = (∑ e ∈ A, if p e then ∑ k ∈ B, g e k * w k else 0) * s := by
  simp only [Finset.sum_mul]
  rw [Finset.sum_comm]
  refine Finset.sum_congr rfl fun e _ => ?_
  split_ifs
  · rw [Finset.sum_mul]
    exact Finset.sum_congr rfl fun k _ => by ring
  · simp

/-- Aggregating real hidden rows, dividing by the count and projecting is projecting each row, aggregating and
    scaling by the reciprocal count. -/
theorem layer2_exchange (h : Fin 50000 → Fin 256 → EReal) (hh : ∀ r k, IsReal (h r k))
    (hW2l : ∀ i, IsReal (W2l i)) (r : Fin 50000) (j : Fin 128) :
    ∑ k : Fin 256, Ideal.div (seg dstI r fun e => h (row srcI e) k) (cmax dstI r) * W2l (ix2 k j)
      = (seg dstI r fun e => ∑ k : Fin 256, h (row srcI e) k * W2l (ix2 k j)) * Ideal.div 1 (cmax dstI r) := by
  choose hr hhr using hh
  choose w hw using hW2l
  obtain ⟨c, hc, hc0⟩ := cmax_real dstI r
  have hL : ∀ k : Fin 256,
      Ideal.div (seg dstI r fun e => h (row srcI e) k) (cmax dstI r) * W2l (ix2 k j)
        = (((∑ e : Fin 800000, if (dstI (ix2 e 0)).toInt = (r.val : ℤ) then hr (row srcI e) k else 0) * (1 / c)
            * w (ix2 k j) : ℝ) : EReal) := by
    intro k
    have hf : (fun e => h (row srcI e) k) = fun e => ((hr (row srcI e) k : ℝ) : EReal) := funext fun e => hhr _ _
    rw [hf, seg_coe, hc, Ideal.div_coe hc0, hw, EReal.coe_mul, EReal.coe_mul]
  have hR : (fun e => ∑ k : Fin 256, h (row srcI e) k * W2l (ix2 k j))
      = fun e => ((∑ k : Fin 256, hr (row srcI e) k * w (ix2 k j) : ℝ) : EReal) := by
    funext e
    rw [coe_sum']
    exact Finset.sum_congr rfl fun k _ => by rw [hhr, hw, EReal.coe_mul]
  rw [Finset.sum_congr rfl fun k _ => hL k, hR, seg_coe, hc, Ideal.div_coe hc0, one_mul, ← coe_sum', ← EReal.coe_mul]
  exact congrArg _ (real_exchange _ _ _ _ _ _)

/-- The plain program's output entry is the tiled program's. -/
theorem outRAt_eq_outAt (hx : ∀ i, IsReal (x i)) (hW1l : ∀ i, IsReal (W1l i)) (hb1 : ∀ i, IsReal (b1 i))
    (hW1r : ∀ i, IsReal (W1r i)) (hW2l : ∀ i, IsReal (W2l i)) (r : Fin 50000) (j : Fin 128) :
    outRAt x srcI dstI W1l b1 W1r W2l b2 W2r r j = outAt x srcI dstI W1l b1 W1r W2l b2 W2r r j := by
  unfold outRAt outAt
  rw [hidRAt_eq_hidAt]
  have key := layer2_exchange srcI dstI W2l (hidAt x srcI dstI W1l b1 W1r)
    (hidAt_real x srcI dstI W1l b1 W1r hx hW1l hb1 hW1r) hW2l r j
  rw [key]

end

/-- The plain program's value is the tiled program's value wherever the float inputs are real numbers. -/
theorem GR_eq_G (x : NodeIdx → EReal) (srcI dstI : EdgeIdx → BitVec 32)
    (W1l : (⟨2, ![256, 256]⟩ : Shape).Idx → EReal) (b1 : (⟨1, ![256]⟩ : Shape).Idx → EReal)
    (W1r : (⟨2, ![256, 256]⟩ : Shape).Idx → EReal) (W2l : (⟨2, ![256, 128]⟩ : Shape).Idx → EReal)
    (b2 : (⟨1, ![128]⟩ : Shape).Idx → EReal) (W2r : (⟨2, ![256, 128]⟩ : Shape).Idx → EReal)
    (hx : ∀ i, ∃ r : ℝ, x i = (r : EReal)) (hW1l : ∀ i, ∃ r : ℝ, W1l i = (r : EReal)) (hb1 : ∀ i, ∃ r : ℝ, b1 i = (r : EReal))
    (hW1r : ∀ i, ∃ r : ℝ, W1r i = (r : EReal)) (hW2l : ∀ i, ∃ r : ℝ, W2l i = (r : EReal)) :
    GR x srcI dstI W1l b1 W1r W2l b2 W2r = G x srcI dstI W1l b1 W1r W2l b2 W2r := by
  funext i
  exact outRAt_eq_outAt x srcI dstI W1l b1 W1r W2l b2 W2r hx hW1l hb1 hW1r hW2l (i 0) (i 1)

end Cert.Sage

end
-- ==== Proof.LibScatterRows.lean ====
/-
  General lemmas: the host's row gather `x[idx]` and the row scatter-add (a segment sum) READ AT AN INDEX,
  at the ideal instance (floats are extended reals), for dimension-number records given as structure literals
  with an arbitrary well-formedness proof.
-/
import Idealize.ShloMosaic.PureOps.Ideal
import Idealize.ShloMosaic.Lib.ValueIdx
import Idealize.ShloMosaic.Lib.IdealHost

noncomputable section

namespace Cert.ScatterRows

open Idealize.ShloMosaic Idealize.ShloMosaic.ValueIdx
open scoped BigOperators

/-! ## The row gather `x[idx]` read at an index -/

/-- The dimension numbers of a row gather: operand `[N, D]`, start indices `[E, 1]`, result `[E, D]`; the result's
    axis 1 is the offset axis, the operand's axis 0 is collapsed and is the one the start index names, and a slice
    is one whole row. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, c)` of a row gather reads its start index is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (c : Fin D) (k : Fin (rowGatherDims N E D wf).startIndexMap.length) :
    (rowGatherDims N E D wf).siIdx (ix2 e c) k = ix2 e 0 := by
  funext b; refine Fin.ext ?_
  match b with
  | ⟨0, _⟩ => rfl
  | ⟨1, _⟩ =>
    have hk : k.val < 1 := k.isLt
    show k.val = 0
    omega

/-- On the collapsed axis the operand index of a row gather is the start index `idx[e, 0]`, read signed and clamped
    into `[0, N − 1]`. -/
theorem rowGather_operandIdx_zero {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    ((rowGatherDims N E D wf).operandIdx (ix2 e c) idx 0).val = min (idx (ix2 e 0)).toInt.toNat (N - 1) := by
  show (rowGatherDims N E D wf).start (ix2 e c) idx 0 + (rowGatherDims N E D wf).batchCoord (ix2 e c) 0
    + (rowGatherDims N E D wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E D wf).startIndexMap from List.mem_singleton.mpr rfl),
    rowGather_siIdx]
  rfl

/-- On the offset axis the operand index of a row gather is the result's column. -/
theorem rowGather_operandIdx_one {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    ((rowGatherDims N E D wf).operandIdx (ix2 e c) idx 1).val = c.val := by
  show (rowGatherDims N E D wf).start (ix2 e c) idx 1 + (rowGatherDims N E D wf).batchCoord (ix2 e c) 1
    + (rowGatherDims N E D wf).offCoord (ix2 e c) 1 = _
  rw [GatherDims.batchCoord_eq_zero _ _ _ List.not_mem_nil]
  unfold GatherDims.start
  rw [dif_neg (show ¬ ((1 : Fin 2) ∈ ([0] : List (Fin 2))) by decide)]
  simp only [Nat.add_zero, Nat.zero_add]
  rfl

/-- THE ROW GATHER READ AT `(e, c)`: column `c` of the operand's row at the start index `idx[e, 0]`, read signed and
    clamped into `[0, N − 1]`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather ({ offsetDims := [1], collapsedSliceDims := [0], operandBatchingDims := [], startIndicesBatchingDims := [], startIndexMap := [0], indexVectorDim := 1, sliceSizes := ![1, D], wf := wf } : GatherDims ⟨2, ![N, D]⟩ ⟨2, ![E, 1]⟩ ⟨2, ![E, D]⟩) x idx (ix2 e c)
      = x (ix2 ⟨min (idx (ix2 e 0)).toInt.toNat (N - 1), by omega⟩ c) := by
  show Host.gather (rowGatherDims N E D wf) x idx (ix2 e c) = _
  unfold Host.gather
  congr 1
  funext a
  refine Fin.ext ?_
  match a with
  | ⟨0, _⟩ => exact rowGather_operandIdx_zero wf idx e c
  | ⟨1, _⟩ => exact rowGather_operandIdx_one wf idx e c

/-! ## The scatter's result index -/

/-- An update index lands on operand index `i` exactly when, on every operand axis, its start (read signed) plus
    its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro hs a
      have hv : (d.start j idx a + (d.window j a : ℤ)).toNat = (i a).val :=
        congrArg Fin.val (congrFun (Option.some.inj hs) a)
      have h0 := (h a).1
      omega
    · intro hall
      congr 1
      funext a
      refine Fin.ext ?_
      show (d.start j idx a + (d.window j a : ℤ)).toNat = (i a).val
      have := hall a
      omega
  · rename_i h
    constructor
    · intro hs
      exact absurd hs (by simp)
    · intro hall
      exfalso
      apply h
      intro a
      have h1 := hall a
      have h2 := (i a).isLt
      omega

/-! ## The row scatter-add (a segment sum) read at an index -/

/-- The dimension numbers of a row scatter: operand `[N, D]`, scatter indices `[E, 1]`, updates `[E, D]`; the
    updates' axis 1 is the window axis, the operand's axis 0 is inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- The scatter-indices index at which update index `(e, c)` of a row scatter reads its start index is `(e, 0)`. -/
theorem rowScatter_siIdx (k : Fin (rowScatterDims N E D wf).scatterDimsToOperandDims.length) :
    (rowScatterDims N E D wf).siIdx (ix2 e c) k = ix2 e 0 := by
  funext b; refine Fin.ext ?_
  match b with
  | ⟨0, _⟩ => rfl
  | ⟨1, _⟩ =>
    have hk : k.val < 1 := k.isLt
    show k.val = 0
    omega

/-- On the inserted axis the start is the scatter index `idx[e, 0]` read signed. -/
theorem rowScatter_start_zero : (rowScatterDims N E D wf).start (ix2 e c) idx 0 = (idx (ix2 e 0)).toInt := by
  unfold ScatterDims.start
  rw [dif_pos (show (0 : Fin 2) ∈ (rowScatterDims N E D wf).scatterDimsToOperandDims from List.mem_singleton.mpr rfl),
    rowScatter_siIdx]

/-- On the window axis the start is zero. -/
theorem rowScatter_start_one : (rowScatterDims N E D wf).start (ix2 e c) idx 1 = 0 := by
  unfold ScatterDims.start
  rw [dif_neg (show ¬ ((1 : Fin 2) ∈ ([0] : List (Fin 2))) by decide)]

/-- On the inserted axis the window coordinate is zero. -/
theorem rowScatter_window_zero : (rowScatterDims N E D wf).window (ix2 e c) 0 = 0 := by
  have h : (0 : Fin 2) ∉ (rowScatterDims N E D wf).sKept := by
    show ¬ ((0 : Fin 2) ∈ (List.finRange 2).filter (· ∉ ([0] : List (Fin 2))))
    decide
  unfold ScatterDims.window
  rw [dif_neg h]

/-- On the window axis the window coordinate is the update's column. -/
theorem rowScatter_window_one : (rowScatterDims N E D wf).window (ix2 e c) 1 = c.val := by
  have h : (1 : Fin 2) ∈ (rowScatterDims N E D wf).sKept := by
    show (1 : Fin 2) ∈ (List.finRange 2).filter (· ∉ ([0] : List (Fin 2)))
    decide
  unfold ScatterDims.window
  rw [dif_pos h]
  rfl

/-- Update `(e, c')` of a row scatter lands on operand element `(r, c)` exactly when the scatter index `idx[e, 0]`,
    read signed, is `r`, and the columns agree. -/
theorem rowScatter_resultIdx?_iff (c' : Fin D) (r : Fin N) :
    (rowScatterDims N E D wf).resultIdx? (ix2 e c') idx = some (ix2 r c)
      ↔ (idx (ix2 e 0)).toInt = (r.val : ℤ) ∧ c' = c := by
  rw [resultIdx?_eq_some_iff, Fin.forall_fin_two, rowScatter_start_zero, rowScatter_start_one, rowScatter_window_zero,
    rowScatter_window_one]
  show (idx (ix2 e 0)).toInt + ((0 : ℕ) : ℤ) = (r.val : ℤ) ∧ (0 : ℤ) + (c'.val : ℤ) = (c.val : ℤ) ↔ _
  constructor
  · rintro ⟨h0, h1⟩
    exact ⟨by omega, Fin.ext (by omega)⟩
  · rintro ⟨h0, rfl⟩
    exact ⟨by omega, by omega⟩

end Rows

/-- THE ROW SCATTER-ADD READ AT `(r, c)`: the operand's element plus the sum, over the updates' rows `e` whose scatter
    index `idx[e, 0]` (read signed) is `r`, of the update's element `(e, c)`. A row whose index is outside
    `[0, N)` matches no `r` and contributes nothing. -/
theorem scatterAdd_rows_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (r : Fin N) (c : Fin D) :
    Ideal.hostScatterAdd ({ updateWindowDims := [1], insertedWindowDims := [0], scatterDimsToOperandDims := [0], indexVectorDim := 1, wf := wf } : ScatterDims ⟨2, ![N, D]⟩ ⟨2, ![E, 1]⟩ ⟨2, ![E, D]⟩) x idx upd (ix2 r c)
      = x (ix2 r c) + ∑ e : Fin E, if (idx (ix2 e 0)).toInt = (r.val : ℤ) then upd (ix2 e c) else 0 := by
  show x (ix2 r c) + ∑ j ∈ Finset.univ.filter (fun j => (rowScatterDims N E D wf).resultIdx? j idx = some (ix2 r c)), upd j = _
  congr 1
  rw [Finset.sum_filter, sum_idx2]
  refine Finset.sum_congr rfl (fun e _ => ?_)
  by_cases hP : (idx (ix2 e 0)).toInt = (r.val : ℤ)
  · rw [if_pos hP, Finset.sum_eq_single c]
    · exact if_pos ((rowScatter_resultIdx?_iff wf idx e c c r).mpr ⟨hP, rfl⟩)
    · intro c' _ hne
      exact if_neg (fun h => hne ((rowScatter_resultIdx?_iff wf idx e c c' r).mp h).2)
    · intro h
      exact absurd (Finset.mem_univ c) h
  · rw [if_neg hP]
    refine Finset.sum_eq_zero (fun c' _ => ?_)
    exact if_neg (fun h => hP ((rowScatter_resultIdx?_iff wf idx e c c' r).mp h).1)

/-! ## The vector scatter-add (a segment sum of scalars) read at an index -/

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The dimension numbers of a vector scatter: operand `[N]`, scatter indices `[E, 1]`, updates `[E]`; the updates
    have no window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- The scatter-indices index at which update index `e` of a vector scatter reads its start index is `(e, 0)`. -/
theorem vecScatter_siIdx (k : Fin (vecScatterDims N E wf).scatterDimsToOperandDims.length) :
    (vecScatterDims N E wf).siIdx (ix1 e) k = ix2 e 0 := by
  funext b; refine Fin.ext ?_
  match b with
  | ⟨0, _⟩ => rfl
  | ⟨1, _⟩ =>
    have hk : k.val < 1 := k.isLt
    show k.val = 0
    omega

/-- On the operand's one axis the start is the scatter index `idx[e, 0]` read signed. -/
theorem vecScatter_start_zero : (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl),
    vecScatter_siIdx]

/-- On the operand's one axis, an inserted one, the window coordinate is zero. -/
theorem vecScatter_window_zero : (vecScatterDims N E wf).window (ix1 e) 0 = 0 := by
  have h : (0 : Fin 1) ∉ (vecScatterDims N E wf).sKept := by
    show ¬ ((0 : Fin 1) ∈ (List.finRange 1).filter (· ∉ ([0] : List (Fin 1))))
    decide
  unfold ScatterDims.window
  rw [dif_neg h]

/-- Update `e` of a vector scatter lands on operand element `r` exactly when the scatter index `idx[e, 0]`, read
    signed, is `r`. -/
theorem vecScatter_resultIdx?_iff (r : Fin N) :
    (vecScatterDims N E wf).resultIdx? (ix1 e) idx = some (ix1 r) ↔ (idx (ix2 e 0)).toInt = (r.val : ℤ) := by
  rw [resultIdx?_eq_some_iff]
  constructor
  · intro h
    have h0 := h 0
    rw [vecScatter_start_zero, vecScatter_window_zero] at h0
    have h0' : (idx (ix2 e 0)).toInt + ((0 : ℕ) : ℤ) = (r.val : ℤ) := h0
    omega
  · intro h a
    obtain rfl : a = 0 := Subsingleton.elim _ _
    rw [vecScatter_start_zero, vecScatter_window_zero]
    show (idx (ix2 e 0)).toInt + ((0 : ℕ) : ℤ) = (r.val : ℤ)
    omega

end Vec

/-- THE VECTOR SCATTER-ADD READ AT `r`: the operand's element plus the sum, over the updates `e` whose scatter index
    `idx[e, 0]` (read signed) is `r`, of the update `e`. An update whose index is outside `[0, N)` matches no `r`
    and contributes nothing. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd ({ updateWindowDims := [], insertedWindowDims := [0], scatterDimsToOperandDims := [0], indexVectorDim := 1, wf := wf } : ScatterDims ⟨1, ![N]⟩ ⟨2, ![E, 1]⟩ ⟨1, ![E]⟩) x idx upd (ix1 r)
      = x (ix1 r) + ∑ e : Fin E, if (idx (ix2 e 0)).toInt = (r.val : ℤ) then upd (ix1 e) else 0 := by
  show x (ix1 r) + ∑ j ∈ Finset.univ.filter (fun j => (vecScatterDims N E wf).resultIdx? j idx = some (ix1 r)), upd j = _
  congr 1
  rw [Finset.sum_filter, sum_idx1]
  refine Finset.sum_congr rfl (fun e _ => ?_)
  by_cases hP : (idx (ix2 e 0)).toInt = (r.val : ℤ)
  · rw [if_pos hP]
    exact if_pos ((vecScatter_resultIdx?_iff wf idx e r).mpr hP)
  · rw [if_neg hP]
    exact if_neg (fun h => hP ((vecScatter_resultIdx?_iff wf idx e r).mp h))

/-! ## Two f32 constants at the ideal instance -/

/-- The f32 pattern `0x3F800000` is the extended real one. -/
theorem ofBits_one_f32 : Ideal.ofBits .f32 0x3F800000#32 = 1 := Ideal.ofBits_one_f32

/-- The f32 pattern of zero is the extended real zero. -/
theorem ofBits_zero_f32' : Ideal.ofBits .f32 0x00000000#32 = 0 := Ideal.ofBits_zero_f32

end Cert.ScatterRows

end
-- ==== Proof.RefValue.lean ====
/-
  The plain program's value, index by index.

  The plain program gathers the source rows of the edges, adds them into their target rows (a segment sum), divides by
  the number of edges into the row (at least one), multiplies by the first weight, adds the bias and the node's own
  projection, and rectifies: the hidden rows. It does the same once more on the hidden rows and applies the logistic
  function, written 1 / (1 + exp (-z)). Read at an index, a row gather is the operand's row at the clamped start
  index, a scatter-add into zeros is the sum over the edges whose target is the row, and a matrix product is the sum
  over the contraction index; the layers below put these together, one named value at a time, and arrive at the
  closed form GR of the eight arguments. The two index arrays GR takes are the first gather's start indices and the
  first scatter's target indices; the program computes both again for the second layer, by the same operations.
-/
import proofs.«175912_j5995774346006_2_alg».proof.Proof.Gen.ReferenceIdeal.Read
import proofs.«175912_j5995774346006_2_alg».proof.Proof.Spec
import proofs.«175912_j5995774346006_2_alg».proof.Proof.LibScatterRows

noncomputable section

open scoped BigOperators

namespace Cert.Sage.Ref

open Idealize.ShloMosaic Idealize.ShloMosaic.ValueIdx Cert.ReferenceIdeal Cert.ReferenceIdeal.Read

/-! ## The index arrays the program computes more than once -/

/-- The second scatter's index array is the first's: the same operations of the edge array. -/
theorem v16_eq (a1 : (⟨S2x800000, .i32⟩ : BufTy).Contents (Elt Ideal)) :
    val_main_v16 (F := Ideal) a1 = val_main_v12 (F := Ideal) a1 := rfl
/-- So is the third's. -/
theorem v38_eq (a1 : (⟨S2x800000, .i32⟩ : BufTy).Contents (Elt Ideal)) :
    val_main_v38 (F := Ideal) a1 = val_main_v12 (F := Ideal) a1 := rfl
/-- So is the fourth's. -/
theorem v42_eq (a1 : (⟨S2x800000, .i32⟩ : BufTy).Contents (Elt Ideal)) :
    val_main_v42 (F := Ideal) a1 = val_main_v12 (F := Ideal) a1 := rfl
/-- The second gather's start-index array is the first's: the same wrap of the same source indices. -/
theorem v35_eq (a1 : (⟨S2x800000, .i32⟩ : BufTy).Contents (Elt Ideal)) :
    val_main_v35 (F := Ideal) a1 = val_main_v9 (F := Ideal) a1 := rfl

/-! ## The count: edges into a node, at least one -/

/-- A scatter-add of the constant one, per edge, into zeros, then the maximum with one: the number of edges
    whose target is the node, or one if there is none. Generic in the index array and in the three constant arrays. -/
theorem count_of (dstI : Cert.Sage.EdgeIdx → BitVec 32)
    (zeros : S50000.Idx → EReal) (ones : S800000.Idx → EReal) (ones' : S50000.Idx → EReal)
    (hz : ∀ i, zeros i = 0) (ho : ∀ i, ones i = 1) (ho' : ∀ i, ones' i = 1) (r : Fin 50000) :
    max (Host.scatterAdd (F := Ideal) (φ := .f32) scatter_S50000_S800000x1_S800000_n_0_0_1 zeros dstI ones (ix1 r)) (ones' (ix1 r))
      = Cert.Sage.cmax dstI r := by
  have h := Cert.ScatterRows.scatterAdd_vec_apply (N := 50000) (E := 800000)
    Facts₀.scatter_S50000_S800000x1_S800000_n_0_0_1_wf zeros dstI ones r
  have h' : Host.scatterAdd (F := Ideal) (φ := .f32) scatter_S50000_S800000x1_S800000_n_0_0_1 zeros dstI ones (ix1 r)
      = zeros (ix1 r) + ∑ e : Fin 800000, if (dstI (ix2 e 0)).toInt = (r.val : ℤ) then ones (ix1 e) else 0 := h
  rw [h', hz, ho', zero_add]
  unfold Cert.Sage.cmax Cert.Sage.seg
  simp only [ho]

theorem count_eq (a1 : (⟨S2x800000, .i32⟩ : BufTy).Contents (Elt Ideal)) (r : Fin 50000) :
    val_main_v19 (F := Ideal) a1 (ix1 r) = Cert.Sage.cmax (val_main_v12 (F := Ideal) a1) r := by
  rw [val_main_v19_apply]
  show max (val_main_v17 (F := Ideal) a1 (ix1 r)) (val_main_v18 (F := Ideal) (ix1 r)) = _
  unfold val_main_v17
  rw [v16_eq]
  refine count_of (val_main_v12 (F := Ideal) a1) (val_main_v15 (F := Ideal)) (val_main_v14 (F := Ideal)) (val_main_v18 (F := Ideal)) ?_ ?_ ?_ r
  · intro i; rw [val_main_v15_apply, val_main_cst_2_apply]; exact Cert.ScatterRows.ofBits_zero_f32'
  · intro i; rw [val_main_v14_apply, val_main_cst_1_apply]; exact Cert.ScatterRows.ofBits_one_f32
  · intro i; rw [val_main_v18_apply, val_main_cst_3_apply]; exact Cert.ScatterRows.ofBits_one_f32

/-! ## A segment sum of gathered rows -/

/-- A row scatter-add into zeros of the rows a row gather reads: at (r, k), the sum over the edges into r of
    column k of the edge's source row. Generic in the gathered array. -/
theorem segsum_rows (x : S50000x256.Idx → EReal) (srcI dstI : Cert.Sage.EdgeIdx → BitVec 32)
    (zeros : S50000x256.Idx → EReal) (hz : ∀ i, zeros i = 0) (r : Fin 50000) (k : Fin 256) :
    Host.scatterAdd (F := Ideal) (φ := .f32) scatter_S50000x256_S800000x1_S800000x256_1_0_0_1 zeros dstI
        (Host.gather gather_S50000x256_S800000x1_S800000x256_1_0_n_n_0_1_1256 x srcI) (ix2 r k)
      = Cert.Sage.seg dstI r fun e => x (ix2 (Cert.Sage.row srcI e) k) := by
  have h := Cert.ScatterRows.scatterAdd_rows_apply (N := 50000) (E := 800000) (D := 256)
    Facts₀.scatter_S50000x256_S800000x1_S800000x256_1_0_0_1_wf zeros dstI
    (Host.gather gather_S50000x256_S800000x1_S800000x256_1_0_n_n_0_1_1256 x srcI) r k
  have h' : Host.scatterAdd (F := Ideal) (φ := .f32) scatter_S50000x256_S800000x1_S800000x256_1_0_0_1 zeros dstI
        (Host.gather gather_S50000x256_S800000x1_S800000x256_1_0_n_n_0_1_1256 x srcI) (ix2 r k)
      = zeros (ix2 r k) + ∑ e : Fin 800000, if (dstI (ix2 e 0)).toInt = (r.val : ℤ)
          then Host.gather gather_S50000x256_S800000x1_S800000x256_1_0_n_n_0_1_1256 x srcI (ix2 e k) else 0 := h
  rw [h', hz, zero_add]
  unfold Cert.Sage.seg
  refine Finset.sum_congr rfl fun e _ => ?_
  have hg : Host.gather gather_S50000x256_S800000x1_S800000x256_1_0_n_n_0_1_1256 x srcI (ix2 e k)
      = x (ix2 (Cert.Sage.row srcI e) k) :=
    Cert.ScatterRows.gather_rows_apply (N := 50000) (E := 800000) (D := 256) (by decide)
      Facts₀.gather_S50000x256_S800000x1_S800000x256_1_0_n_n_0_1_1256_wf x srcI e k
  rw [hg]

/-- The first aggregate: the sum of the source rows of the edges into r, column k. -/
theorem agg_eq (a0 : (⟨S50000x256, .f32⟩ : BufTy).Contents (Elt Ideal)) (a1 : (⟨S2x800000, .i32⟩ : BufTy).Contents (Elt Ideal))
    (r : Fin 50000) (k : Fin 256) :
    val_main_v13 (F := Ideal) a0 a1 (ix2 r k)
      = Cert.Sage.agg1 a0 (val_main_v9 (F := Ideal) a1) (val_main_v12 (F := Ideal) a1) r k := by
  unfold val_main_v13 val_main_v10 Cert.Sage.agg1
  refine segsum_rows a0 _ _ (val_main_v11 (F := Ideal)) ?_ r k
  intro i; rw [val_main_v11_apply, val_main_cst_apply]; exact Cert.ScatterRows.ofBits_zero_f32'

/-! ## Indices of the layout operations and the products, at explicit coordinates -/

theorem idx20_21 (r : Fin 50000) (k : Fin 256) : idx_main_v20 (idx_main_v21 (ix2 r k)) = ix1 r :=
  funext fun a => Fin.ext (by match a with | ⟨0, _⟩ => rfl)
theorem idx46_47 (r : Fin 50000) (k : Fin 256) : idx_main_v46 (idx_main_v47 (ix2 r k)) = ix1 r :=
  funext fun a => Fin.ext (by match a with | ⟨0, _⟩ => rfl)
theorem idx24_25 (r : Fin 50000) (j : Fin 256) : idx_main_v24 (idx_main_v25 (ix2 r j)) = ix1 j :=
  funext fun a => Fin.ext (by match a with | ⟨0, _⟩ => rfl)
theorem idx50_51 (r : Fin 50000) (j : Fin 128) : idx_main_v50 (idx_main_v51 (ix2 r j)) = ix1 j :=
  funext fun a => Fin.ext (by match a with | ⟨0, _⟩ => rfl)
theorem lidx23 (r : Fin 50000) (j k : Fin 256) : lidx_main_v23 (ix2 r j) k = ix2 r k :=
  funext fun a => Fin.ext (by match a with | ⟨0, _⟩ => rfl | ⟨1, _⟩ => rfl)
theorem ridx23 (r : Fin 50000) (j k : Fin 256) : ridx_main_v23 (ix2 r j) k = ix2 k j :=
  funext fun a => Fin.ext (by match a with | ⟨0, _⟩ => rfl | ⟨1, _⟩ => rfl)
theorem lidx27 (r : Fin 50000) (j k : Fin 256) : lidx_main_v27 (ix2 r j) k = ix2 r k :=
  funext fun a => Fin.ext (by match a with | ⟨0, _⟩ => rfl | ⟨1, _⟩ => rfl)
theorem ridx27 (r : Fin 50000) (j k : Fin 256) : ridx_main_v27 (ix2 r j) k = ix2 k j :=
  funext fun a => Fin.ext (by match a with | ⟨0, _⟩ => rfl | ⟨1, _⟩ => rfl)
theorem lidx49 (r : Fin 50000) (j : Fin 128) (k : Fin 256) : lidx_main_v49 (ix2 r j) k = ix2 r k :=
  funext fun a => Fin.ext (by match a with | ⟨0, _⟩ => rfl | ⟨1, _⟩ => rfl)
theorem ridx49 (r : Fin 50000) (j : Fin 128) (k : Fin 256) : ridx_main_v49 (ix2 r j) k = ix2 k j :=
  funext fun a => Fin.ext (by match a with | ⟨0, _⟩ => rfl | ⟨1, _⟩ => rfl)
theorem lidx53 (r : Fin 50000) (j : Fin 128) (k : Fin 256) : lidx_main_v53 (ix2 r j) k = ix2 r k :=
  funext fun a => Fin.ext (by match a with | ⟨0, _⟩ => rfl | ⟨1, _⟩ => rfl)
theorem ridx53 (r : Fin 50000) (j : Fin 128) (k : Fin 256) : ridx_main_v53 (ix2 r j) k = ix2 k j :=
  funext fun a => Fin.ext (by match a with | ⟨0, _⟩ => rfl | ⟨1, _⟩ => rfl)

/-! ## Layer 1 -/

/-- The first division's denominator: the count of the row, broadcast along the columns. -/
theorem den1_eq (a1 : (⟨S2x800000, .i32⟩ : BufTy).Contents (Elt Ideal)) (r : Fin 50000) (k : Fin 256) :
    val_main_v21 (F := Ideal) a1 (ix2 r k) = Cert.Sage.cmax (val_main_v12 (F := Ideal) a1) r := by
  rw [val_main_v21_apply, val_main_v20_apply, idx20_21, count_eq]

/-- The hidden row after the rectifier, at (r, j). -/
theorem hid_eq (a0 : (⟨S50000x256, .f32⟩ : BufTy).Contents (Elt Ideal)) (a1 : (⟨S2x800000, .i32⟩ : BufTy).Contents (Elt Ideal))
    (a2 : (⟨S256x256, .f32⟩ : BufTy).Contents (Elt Ideal)) (a3 : (⟨S256, .f32⟩ : BufTy).Contents (Elt Ideal))
    (a4 : (⟨S256x256, .f32⟩ : BufTy).Contents (Elt Ideal)) (r : Fin 50000) (j : Fin 256) :
    val_main_v29 (F := Ideal) a0 a1 a2 a3 a4 (ix2 r j)
      = Cert.Sage.hidRAt a0 (val_main_v9 (F := Ideal) a1) (val_main_v12 (F := Ideal) a1) a2 a3 a4 r j := by
  rw [val_main_v29_apply, val_main_v28_apply, val_main_v26_apply, val_main_v23_apply, val_main_v27_apply,
    val_main_v25_apply, val_main_v24_apply, val_main_call0_v0_apply, val_main_call0_cst_apply, idx24_25]
  unfold Cert.Sage.hidRAt
  show max (((∑ k : Fin 256, val_main_v22 (F := Ideal) a0 a1 (lidx_main_v23 (ix2 r j) k) * a2 (ridx_main_v23 (ix2 r j) k))
      + a3 (ix1 j))
      + ∑ k : Fin 256, a0 (lidx_main_v27 (ix2 r j) k) * a4 (ridx_main_v27 (ix2 r j) k)) (Ideal.ofBits .f32 0x00000000#32) = _
  rw [Cert.ScatterRows.ofBits_zero_f32']
  have e1 : ∀ k : Fin 256, val_main_v22 (F := Ideal) a0 a1 (lidx_main_v23 (ix2 r j) k) * a2 (ridx_main_v23 (ix2 r j) k)
      = Ideal.div (Cert.Sage.agg1 a0 (val_main_v9 (F := Ideal) a1) (val_main_v12 (F := Ideal) a1) r k)
          (Cert.Sage.cmax (val_main_v12 (F := Ideal) a1) r) * a2 (ix2 k j) := by
    intro k
    rw [lidx23, ridx23, val_main_v22_apply, agg_eq, den1_eq]
    rfl
  have e2 : ∀ k : Fin 256, a0 (lidx_main_v27 (ix2 r j) k) * a4 (ridx_main_v27 (ix2 r j) k) = a0 (ix2 r k) * a4 (ix2 k j) := by
    intro k
    rw [lidx27, ridx27]
  simp only [e1, e2]

/-! ## Layer 2 -/

/-- The second count is the first: the same scatter-add of ones at the same target indices. -/
theorem count2_eq (a1 : (⟨S2x800000, .i32⟩ : BufTy).Contents (Elt Ideal)) (r : Fin 50000) :
    val_main_v45 (F := Ideal) a1 (ix1 r) = Cert.Sage.cmax (val_main_v12 (F := Ideal) a1) r := by
  rw [val_main_v45_apply]
  show max (val_main_v43 (F := Ideal) a1 (ix1 r)) (val_main_v44 (F := Ideal) (ix1 r)) = _
  unfold val_main_v43
  rw [v42_eq]
  refine count_of (val_main_v12 (F := Ideal) a1) (val_main_v41 (F := Ideal)) (val_main_v40 (F := Ideal)) (val_main_v44 (F := Ideal)) ?_ ?_ ?_ r
  · intro i; rw [val_main_v41_apply, val_main_cst_8_apply]; exact Cert.ScatterRows.ofBits_zero_f32'
  · intro i; rw [val_main_v40_apply, val_main_cst_7_apply]; exact Cert.ScatterRows.ofBits_one_f32
  · intro i; rw [val_main_v44_apply, val_main_cst_9_apply]; exact Cert.ScatterRows.ofBits_one_f32

/-- The second division's denominator. -/
theorem den2_eq (a1 : (⟨S2x800000, .i32⟩ : BufTy).Contents (Elt Ideal)) (r : Fin 50000) (k : Fin 256) :
    val_main_v47 (F := Ideal) a1 (ix2 r k) = Cert.Sage.cmax (val_main_v12 (F := Ideal) a1) r := by
  rw [val_main_v47_apply, val_main_v46_apply, idx46_47, count2_eq]

/-- The second aggregate: the sum of the hidden rows of the sources of the edges into r, column k. -/
theorem agg2_eq (a0 : (⟨S50000x256, .f32⟩ : BufTy).Contents (Elt Ideal)) (a1 : (⟨S2x800000, .i32⟩ : BufTy).Contents (Elt Ideal))
    (a2 : (⟨S256x256, .f32⟩ : BufTy).Contents (Elt Ideal)) (a3 : (⟨S256, .f32⟩ : BufTy).Contents (Elt Ideal))
    (a4 : (⟨S256x256, .f32⟩ : BufTy).Contents (Elt Ideal)) (r : Fin 50000) (k : Fin 256) :
    val_main_v39 (F := Ideal) a0 a1 a2 a3 a4 (ix2 r k)
      = Cert.Sage.seg (val_main_v12 (F := Ideal) a1) r fun e =>
          Cert.Sage.hidRAt a0 (val_main_v9 (F := Ideal) a1) (val_main_v12 (F := Ideal) a1) a2 a3 a4
            (Cert.Sage.row (val_main_v9 (F := Ideal) a1) e) k := by
  unfold val_main_v39 val_main_v36
  rw [v38_eq, v35_eq]
  have hs := segsum_rows (val_main_v29 (F := Ideal) a0 a1 a2 a3 a4) (val_main_v9 (F := Ideal) a1)
    (val_main_v12 (F := Ideal) a1) (val_main_v37 (F := Ideal))
    (by intro i; rw [val_main_v37_apply, val_main_cst_6_apply]; exact Cert.ScatterRows.ofBits_zero_f32') r k
  rw [hs]
  unfold Cert.Sage.seg
  refine Finset.sum_congr rfl fun e _ => ?_
  beta_reduce
  rw [hid_eq]

/-- The result at (r, j). -/
theorem out_eq (a0 : (⟨S50000x256, .f32⟩ : BufTy).Contents (Elt Ideal)) (a1 : (⟨S2x800000, .i32⟩ : BufTy).Contents (Elt Ideal))
    (a2 : (⟨S256x256, .f32⟩ : BufTy).Contents (Elt Ideal)) (a3 : (⟨S256, .f32⟩ : BufTy).Contents (Elt Ideal))
    (a4 : (⟨S256x256, .f32⟩ : BufTy).Contents (Elt Ideal)) (a5 : (⟨S256x128, .f32⟩ : BufTy).Contents (Elt Ideal))
    (a6 : (⟨S128, .f32⟩ : BufTy).Contents (Elt Ideal)) (a7 : (⟨S256x128, .f32⟩ : BufTy).Contents (Elt Ideal))
    (r : Fin 50000) (j : Fin 128) :
    val_main_v60 (F := Ideal) a0 a1 a2 a3 a4 a5 a6 a7 (ix2 r j)
      = Cert.Sage.outRAt a0 (val_main_v9 (F := Ideal) a1) (val_main_v12 (F := Ideal) a1) a2 a3 a4 a5 a6 a7 r j := by
  rw [val_main_v60_apply, val_main_v59_apply, val_main_cst_11_apply, val_main_v58_apply, val_main_v57_apply,
    val_main_cst_10_apply, val_main_v56_apply, val_main_v55_apply, val_main_v54_apply, val_main_v52_apply,
    val_main_v49_apply, val_main_v51_apply, val_main_v50_apply, val_main_v53_apply, idx50_51]
  unfold Cert.Sage.outRAt Ideal.logistic
  simp only [Ideal.hostDivf_def, Ideal.addf_def, Ideal.hostUnary_exp_def, Ideal.hostNegf_def, Ideal.negf_def,
    Ideal.ofBits_def, Cert.ScatterRows.ofBits_one_f32]
  have e1 : ∀ k : Fin 256, val_main_v48 (F := Ideal) a0 a1 a2 a3 a4 (lidx_main_v49 (ix2 r j) k) * a5 (ridx_main_v49 (ix2 r j) k)
      = Ideal.div (Cert.Sage.seg (val_main_v12 (F := Ideal) a1) r fun e =>
          Cert.Sage.hidRAt a0 (val_main_v9 (F := Ideal) a1) (val_main_v12 (F := Ideal) a1) a2 a3 a4
            (Cert.Sage.row (val_main_v9 (F := Ideal) a1) e) k)
          (Cert.Sage.cmax (val_main_v12 (F := Ideal) a1) r) * a5 (ix2 k j) := by
    intro k
    rw [lidx49, ridx49, val_main_v48_apply, agg2_eq, den2_eq]
    rfl
  have e2 : ∀ k : Fin 256, val_main_v29 (F := Ideal) a0 a1 a2 a3 a4 (lidx_main_v53 (ix2 r j) k) * a7 (ridx_main_v53 (ix2 r j) k)
      = Cert.Sage.hidRAt a0 (val_main_v9 (F := Ideal) a1) (val_main_v12 (F := Ideal) a1) a2 a3 a4 r k * a7 (ix2 k j) := by
    intro k
    rw [lidx53, ridx53, hid_eq]
  simp only [e1, e2]

/-! ## The plain program's value -/

/-- The value the plain program's last operation writes is GR of its arguments, the two index arrays being the
    first gather's start indices and the first scatter's target indices. -/
theorem ref_value [Cert.ReferenceIdeal.Facts]
    (a0 : (⟨S50000x256, .f32⟩ : BufTy).Contents (Elt Ideal)) (a1 : (⟨S2x800000, .i32⟩ : BufTy).Contents (Elt Ideal))
    (a2 : (⟨S256x256, .f32⟩ : BufTy).Contents (Elt Ideal)) (a3 : (⟨S256, .f32⟩ : BufTy).Contents (Elt Ideal))
    (a4 : (⟨S256x256, .f32⟩ : BufTy).Contents (Elt Ideal)) (a5 : (⟨S256x128, .f32⟩ : BufTy).Contents (Elt Ideal))
    (a6 : (⟨S128, .f32⟩ : BufTy).Contents (Elt Ideal)) (a7 : (⟨S256x128, .f32⟩ : BufTy).Contents (Elt Ideal)) :
    Cert.ReferenceIdeal.Read.val_main_v60 (F := Ideal) a0 a1 a2 a3 a4 a5 a6 a7
      = Cert.Sage.GR a0 (Cert.ReferenceIdeal.Read.val_main_v9 (F := Ideal) a1)
          (Cert.ReferenceIdeal.Read.val_main_v12 (F := Ideal) a1) a2 a3 a4 a5 a6 a7 := by
  funext i
  obtain ⟨r, j, rfl⟩ : ∃ (r : Fin 50000) (j : Fin 128), i = ix2 r j := ⟨i 0, i 1, eq_ix2 i⟩
  exact out_eq a0 a1 a2 a3 a4 a5 a6 a7 r j

end Cert.Sage.Ref

end
-- ==== Proof.KernelRun.lean ====
/-
  The kernel's run, with its result in the post.

  At the compiled mesh, from any memory with zero counters, every weakly fair execution of the program on the
  TensorCores terminates, nothing faulting, and in every final state the result array holds the last segment
  boundary's contents while the eight argument arrays are as launched. The run is the several-region launch over the
  program's four segments (two stretches of host operations, two pipelined regions); its last thread state holds every
  unscoped buffer at the last boundary's contents, which is read against the final state at the result array and at
  each argument array (an argument's contents walk back through the boundaries to the launch memory).
-/
import proofs.«175912_j5995774346006_2_alg».proof.Proof.Gen.KernelIdeal.Frame

-- membership in a rectangle of long extents: the elaborator's structural look recurses once per coordinate
set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run ends with the result array at the last boundary's contents and the arguments unchanged. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.KRun

end
-- ==== Proof.LibPlainDot.lean ====
/-
  A plain matrix product read at an index.

  For the dimension numbers of an [M, K] by [K, N] product (contract the left operand's axis 1 with the right
  operand's axis 0, no batch axis) the contraction index has one coordinate, which ranges over `Fin K`; entry
  `(p, q)` of the product is `Σ_k lhs (p, k) · rhs (k, q)`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The left operand is read in the output's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand is read in the output's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product at `(p, q)` is the sum over `k : Fin K` of `lhs (p, k) · rhs (k, q)`. -/
theorem contr_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col _ _)
  rw [el, er]

/-- A matrix-unit product into a zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact contr_sum lhs rhs p q

end Cert.PlainDot

end
-- ==== Proof.KernelBody.lean ====
/-
  The two kernel bodies' arithmetic, read at one element of a block.

  A block of 2000 rows enters each body; every value a body stores is a function of the loaded blocks, and at
  row `p`, column `q` of the block it is the formula of Proof/Spec.lean with the block's rows in place of the
  array's: the products are plain [2000, 256] by [256, n] contractions into a zero accumulator, the per-row scale
  is a one-column block broadcast along the row, the bias a one-row block broadcast down the column, and a change
  of float format is the identity on the extended reals.
-/
import proofs.«175912_j5995774346006_2_alg».proof.Proof.Gen.KernelIdeal.Skeleton
import proofs.«175912_j5995774346006_2_alg».proof.Proof.LibPlainDot
import Idealize.ShloMosaic.Lib.Pipeline.Value
import Idealize.ShloMosaic.Lib.ValueLayout

noncomputable section

open scoped BigOperators

namespace Cert.Sage.Body

open Idealize.ShloMosaic Idealize.ShloMosaic.ValueIdx Cert.KernelIdeal Cert.KernelIdeal.Gen

variable [Cert.KernelIdeal.Facts]

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [2000, 256] by [256, 256] product into zeros, at `(p, q)`. -/
theorem mm256 {φ₁ φ₂ : FTy} (L : FVec Ideal S2000x256 φ₁) (R : FVec Ideal S256x256 φ₂) (p : Fin 2000) (q : Fin 256) :
    matmul dot_S2000x256_S256x256_S2000x256_1_0_0_1_n_n none L R (constant (F := Ideal) S2000x256 .f32 0x00000000#32) (ix2 p q)
      = ∑ k : Fin 256, L (ix2 p k) * R (ix2 k q) :=
  Cert.PlainDot.matmul_zero_apply none L R p q

/-- A [2000, 256] by [256, 128] product into zeros, at `(p, q)`. -/
theorem mm128 {φ₁ φ₂ : FTy} (L : FVec Ideal S2000x256 φ₁) (R : FVec Ideal S256x128 φ₂) (p : Fin 2000) (q : Fin 128) :
    matmul dot_S2000x256_S256x128_S2000x128_1_0_0_1_n_n none L R (constant (F := Ideal) S2000x128 .f32 0x00000000#32) (ix2 p q)
      = ∑ k : Fin 256, L (ix2 p k) * R (ix2 k q) :=
  Cert.PlainDot.matmul_zero_apply none L R p q

/-- The hidden block: row `p` of the aggregate scaled by the row's factor, through the left weights, plus the
    row's own features through the right weights, plus the bias, clamped at zero. -/
theorem pay_hidden (v0 : FVec Ideal S2000x256 .f32) (v2 : FVec Ideal S2000x1 .f32) (v7 v9 : FVec Ideal S256x256 .f32)
    (v14 : FVec Ideal S2000x256 .bf16) (v18 : FVec Ideal S1x256 .f32) (p : Fin 2000) (q : Fin 256) :
    k0_pay1 (F := Ideal) v0 v2 v7 v9 v14 v18 (ix2 p q)
      = max (((∑ k : Fin 256, (v0 (ix2 p k) * v2 (ix2 p 0)) * v7 (ix2 k q)) + ∑ k : Fin 256, v14 (ix2 p k) * v9 (ix2 k q))
          + v18 (ix2 0 q)) 0 := by
  unfold k0_pay1
  simp only [shapeCast_self]
  rw [truncf_apply, maximumf_apply, addf_apply, addf_apply, broadcast_apply, mm256, mm256,
    broadcastTo_1b_ab_apply, Ideal.ofBits_def, Ideal.ofBits_zero_f32]
  simp only [truncf_apply, mulf_apply, broadcastTo_a1_ab_apply]

/-- The projected block: the hidden block through the second layer's left weights. -/
theorem pay_proj (v0 : FVec Ideal S2000x256 .f32) (v2 : FVec Ideal S2000x1 .f32) (v7 v9 : FVec Ideal S256x256 .f32)
    (v11 : FVec Ideal S256x128 .f32) (v14 : FVec Ideal S2000x256 .bf16) (v18 : FVec Ideal S1x256 .f32) (p : Fin 2000) (q : Fin 128) :
    k0_pay2 (F := Ideal) v0 v2 v7 v9 v11 v14 v18 (ix2 p q)
      = ∑ k : Fin 256, k0_pay1 (F := Ideal) v0 v2 v7 v9 v14 v18 (ix2 p k) * v11 (ix2 k q) := by
  unfold k0_pay2
  rw [truncf_apply, mm128]
  simp only [truncf_apply]

/-- The result block: the aggregate of projected rows scaled by the row's factor, plus the bias, plus the row's
    hidden features through the right weights, through the logistic function. -/
theorem pay_out (v0 : FVec Ideal S2000x128 .f32) (v2 : FVec Ideal S2000x1 .f32) (v6 : FVec Ideal S256x128 .f32)
    (v8 : FVec Ideal S1x128 .f32) (v12 : FVec Ideal S2000x256 .bf16) (p : Fin 2000) (q : Fin 128) :
    k1_pay1 (F := Ideal) v0 v2 v6 v8 v12 (ix2 p q)
      = Ideal.logistic (((v0 (ix2 p q) * v2 (ix2 p 0)) + v8 (ix2 0 q)) + ∑ k : Fin 256, v12 (ix2 p k) * v6 (ix2 k q)) := by
  unfold k1_pay1
  simp only [shapeCast_self]
  show Ideal.logistic (addf (addf (mulf v0 (broadcastTo S2000x128 v2 broadcasts_S2000x1_S2000x128))
      (broadcastTo S2000x128 v8 broadcasts_S1x128_S2000x128))
    (matmul dot_S2000x256_S256x128_S2000x128_1_0_0_1_n_n none v12 (truncf .bf16 v6 bitsLt_bf16_f32)
      (constant S2000x128 .f32 0x00000000#32)) (ix2 p q)) = _
  rw [addf_apply, addf_apply, mulf_apply, mm128, broadcastTo_1b_ab_apply, broadcastTo_a1_ab_apply]
  simp only [truncf_apply]

end Cert.Sage.Body

end
-- ==== Proof.KernelBlocks.lean ====
/-
  From blocks to arrays: what each region leaves in its output arrays, as ONE function of the arrays it enters with.

  Both regions walk the 50000 rows in 25 blocks of 2000: at grid point `t` every row-tiled window holds rows
  `2000 t … 2000 t + 1999` of its array and every weight or bias window the whole array. So element `(p, q)` of
  the block a point writes back is the body's formula (Proof/KernelBody.lean) at row `2000 t + p` of the entry
  arrays; the 25 blocks tile the output array (row `r` is in block `r / 2000`), hence the array after the region
  is that formula at every index.
-/
import proofs.«175912_j5995774346006_2_alg».proof.Proof.Gen.KernelIdeal.Frame
import proofs.«175912_j5995774346006_2_alg».proof.Proof.KernelBody
import Idealize.ShloMosaic.Lib.Pipeline.Value
import Idealize.ShloMosaic.Lib.ValueIdx

set_option maxRecDepth 16384

noncomputable section

open scoped BigOperators

namespace Cert.Sage.Blocks

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The formulas over whole arrays -/

/-- Layer 1 over whole arrays: aggregate `A` scaled per row by `s`, through `Wl`; the rows `X` through `Wr`; bias; clamp. -/
def hiddenArr (A : S50000x256.Idx → EReal) (s : S50000x1.Idx → EReal) (X : S50000x256.Idx → EReal)
    (Wl : S256x256.Idx → EReal) (b : S1x256.Idx → EReal) (Wr : S256x256.Idx → EReal) : S50000x256.Idx → EReal :=
  fun i => max (((∑ k : Fin 256, (A (ix2 (i 0) k) * s (ix2 (i 0) 0)) * Wl (ix2 k (i 1)))
    + ∑ k : Fin 256, X (ix2 (i 0) k) * Wr (ix2 k (i 1))) + b (ix2 0 (i 1))) 0

/-- The rows `H` through the weights `W`. -/
def projArr (H : S50000x256.Idx → EReal) (W : S256x128.Idx → EReal) : S50000x128.Idx → EReal :=
  fun i => ∑ k : Fin 256, H (ix2 (i 0) k) * W (ix2 k (i 1))

/-- Layer 2 over whole arrays: aggregate `A2` scaled per row by `s`, plus bias, plus the rows `H` through `Wr`; logistic. -/
def outArr (A2 : S50000x128.Idx → EReal) (s : S50000x1.Idx → EReal) (H : S50000x256.Idx → EReal)
    (Wr : S256x128.Idx → EReal) (b : S1x128.Idx → EReal) : S50000x128.Idx → EReal :=
  fun i => Ideal.logistic (((A2 (ix2 (i 0) (i 1)) * s (ix2 (i 0) 0)) + b (ix2 0 (i 1)))
    + ∑ k : Fin 256, H (ix2 (i 0) k) * Wr (ix2 k (i 1)))

/-! ## Rows of a block -/

theorem lt25_0 (t : Fin cfg0.N) : t.val < 25 := lt_of_lt_of_eq t.isLt N_0
theorem lt25_1 (t : Fin cfg1.N) : t.val < 25 := lt_of_lt_of_eq t.isLt N_1

/-- Row `p` of block `t` is row `2000 t + p` of the array. -/
def rowAt (t : Nat) (ht : t < 25) (p : Fin 2000) : Fin 50000 := ⟨t * 2000 + p.val, by omega⟩

/-! ## Region 0 -/

/-- The block index of every window of region 0 at point `t`: `(t, 0)` for the row-tiled ones, `(0, 0)` for the rest. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem read0_0 (c : Dev nD) (t : Fin cfg0.N) (p : Fin 2000) (k : Fin 256) :
    iblk0 V c 0 t (ix2 p k) = V c main_v24 (ix2 (rowAt t.val (lt25_0 t) p) k) := by
  show V c main_v24 (((cfg0.win 0).blk t).view.emb (ix2 p k)) = V c main_v24 _
  obtain ⟨e0, e1, -⟩ := idx0 t
  have h : ((cfg0.win 0).blk t).view.emb (ix2 p k) = ix2 (rowAt t.val (lt25_0 t) p) k := by
    funext a; apply Fin.ext
    match a with
    | ⟨0, _⟩ => show win0_0.index t (0 : Fin 2) * 2000 + 1 * p.val = t.val * 2000 + p.val; rw [e0]; omega
    | ⟨1, _⟩ => show win0_0.index t (1 : Fin 2) * 256 + 1 * k.val = k.val; rw [e1]; omega
  rw [h]

theorem read0_1 (c : Dev nD) (t : Fin cfg0.N) (p : Fin 2000) :
    iblk0 V c 1 t (ix2 p (0 : Fin 1)) = V c main_v12 (ix2 (rowAt t.val (lt25_0 t) p) (0 : Fin 1)) := by
  show V c main_v12 (((cfg0.win 1).blk t).view.emb (ix2 p (0 : Fin 1))) = V c main_v12 _
  obtain ⟨-, -, e0, e1, -⟩ := idx0 t
  have h : ((cfg0.win 1).blk t).view.emb (ix2 p (0 : Fin 1)) = ix2 (rowAt t.val (lt25_0 t) p) (0 : Fin 1) := by
    funext a; apply Fin.ext
    match a with
    | ⟨0, _⟩ => show win0_1.index t (0 : Fin 2) * 2000 + 1 * p.val = t.val * 2000 + p.val; rw [e0]; omega
    | ⟨1, _⟩ => show win0_1.index t (1 : Fin 2) * 1 + 1 * 0 = 0; rw [e1]
  rw [h]

theorem read0_2 (c : Dev nD) (t : Fin cfg0.N) (p : Fin 2000) (k : Fin 256) :
    iblk0 V c 2 t (ix2 p k) = V c main_v13 (ix2 (rowAt t.val (lt25_0 t) p) k) := by
  show V c main_v13 (((cfg0.win 2).blk t).view.emb (ix2 p k)) = V c main_v13 _
  obtain ⟨-, -, -, -, e0, e1, -⟩ := idx0 t
  have h : ((cfg0.win 2).blk t).view.emb (ix2 p k) = ix2 (rowAt t.val (lt25_0 t) p) k := by
    funext a; apply Fin.ext
    match a with
    | ⟨0, _⟩ => show win0_2.index t (0 : Fin 2) * 2000 + 1 * p.val = t.val * 2000 + p.val; rw [e0]; omega
    | ⟨1, _⟩ => show win0_2.index t (1 : Fin 2) * 256 + 1 * k.val = k.val; rw [e1]; omega
  rw [h]

theorem read0_3 (c : Dev nD) (t : Fin cfg0.N) (k : Fin 256) (q : Fin 256) :
    iblk0 V c 3 t (ix2 k q) = V c main_arg2 (ix2 k q) := by
  show V c main_arg2 (((cfg0.win 3).blk t).view.emb (ix2 k q)) = V c main_arg2 _
  obtain ⟨-, -, -, -, -, -, e0, e1, -⟩ := idx0 t
  have h : ((cfg0.win 3).blk t).view.emb (ix2 k q) = ix2 k q := by
    funext a; apply Fin.ext
    match a with
    | ⟨0, _⟩ => show win0_3.index t (0 : Fin 2) * 256 + 1 * k.val = k.val; rw [e0]; omega
    | ⟨1, _⟩ => show win0_3.index t (1 : Fin 2) * 256 + 1 * q.val = q.val; rw [e1]; omega
  rw [h]

theorem read0_4 (c : Dev nD) (t : Fin cfg0.N) (q : Fin 256) :
    iblk0 V c 4 t (ix2 (0 : Fin 1) q) = V c main_v25 (ix2 (0 : Fin 1) q) := by
  show V c main_v25 (((cfg0.win 4).blk t).view.emb (ix2 (0 : Fin 1) q)) = V c main_v25 _
  obtain ⟨-, -, -, -, -, -, -, -, e0, e1, -⟩ := idx0 t
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; rw [e0]
    | ⟨1, _⟩ => show win0_4.index t (1 : Fin 2) * 256 + 1 * q.val = q.val; rw [e1]; omega
  rw [h]

theorem read0_5 (c : Dev nD) (t : Fin cfg0.N) (k : Fin 256) (q : Fin 256) :
    iblk0 V c 5 t (ix2 k q) = V c main_arg4 (ix2 k q) := by
  show V c main_arg4 (((cfg0.win 5).blk t).view.emb (ix2 k q)) = V c main_arg4 _
  obtain ⟨-, -, -, -, -, -, -, -, -, -, e0, e1, -⟩ := idx0 t
  have h : ((cfg0.win 5).blk t).view.emb (ix2 k q) = ix2 k q := by
    funext a; apply Fin.ext
    match a with
    | ⟨0, _⟩ => show win0_5.index t (0 : Fin 2) * 256 + 1 * k.val = k.val; rw [e0]; omega
    | ⟨1, _⟩ => show win0_5.index t (1 : Fin 2) * 256 + 1 * q.val = q.val; rw [e1]; omega
  rw [h]

theorem read0_6 (c : Dev nD) (t : Fin cfg0.N) (k : Fin 256) (q : Fin 128) :
    iblk0 V c 6 t (ix2 k q) = V c main_arg5 (ix2 k q) := by
  show V c main_arg5 (((cfg0.win 6).blk t).view.emb (ix2 k q)) = V c main_arg5 _
  obtain ⟨-, -, -, -, -, -, -, -, -, -, -, -, e0, e1, -⟩ := idx0 t
  have h : ((cfg0.win 6).blk t).view.emb (ix2 k q) = ix2 k q := by
    funext a; apply Fin.ext
    match a with
    | ⟨0, _⟩ => show win0_6.index t (0 : Fin 2) * 256 + 1 * k.val = k.val; rw [e0]; omega
    | ⟨1, _⟩ => show win0_6.index t (1 : Fin 2) * 128 + 1 * q.val = q.val; rw [e1]; omega
  rw [h]

/-- The hidden block at `(p, q)` is the layer-1 formula at row `2000 t + p` of the entry arrays. -/
theorem hid_block (c : Dev nD) (t : Fin cfg0.N) (p : Fin 2000) (q : Fin 256) :
    k0_pay1 (F := Ideal) (iblk0 V c 0 t) (iblk0 V c 1 t) (iblk0 V c 3 t) (iblk0 V c 5 t) (iblk0 V c 2 t) (iblk0 V c 4 t) (ix2 p q)
      = hiddenArr (V c main_v24) (V c main_v12) (V c main_v13) (V c main_arg2) (V c main_v25) (V c main_arg4)
          (ix2 (rowAt t.val (lt25_0 t) p) q) := by
  refine (Body.pay_hidden _ _ _ _ _ _ p q).trans ?_
  simp only [read0_0 V c t, read0_1 V c t, read0_2 V c t, read0_3 V c t, read0_4 V c t, read0_5 V c t]
  rfl

/-- The projected block at `(p, q)`: the hidden formula's row `2000 t + p` through the second layer's left weights. -/
theorem proj_block (c : Dev nD) (t : Fin cfg0.N) (p : Fin 2000) (q : Fin 128) :
    k0_pay2 (F := Ideal) (iblk0 V c 0 t) (iblk0 V c 1 t) (iblk0 V c 3 t) (iblk0 V c 5 t) (iblk0 V c 6 t) (iblk0 V c 2 t) (iblk0 V c 4 t) (ix2 p q)
      = projArr (hiddenArr (V c main_v24) (V c main_v12) (V c main_v13) (V c main_arg2) (V c main_v25) (V c main_arg4)) (V c main_arg5)
          (ix2 (rowAt t.val (lt25_0 t) p) q) := by
  refine (Body.pay_proj _ _ _ _ _ _ _ p q).trans ?_
  show _ = ∑ k : Fin 256, hiddenArr (V c main_v24) (V c main_v12) (V c main_v13) (V c main_arg2) (V c main_v25) (V c main_arg4)
      (ix2 (rowAt t.val (lt25_0 t) p) k) * V c main_arg5 (ix2 k q)
  refine Finset.sum_congr rfl fun k _ => ?_
  rw [hid_block V c t p k, read0_6 V c t k q]

/-- An index of the hidden array is in point `t`'s block iff each coordinate is in the block's range. -/
theorem mem_blk0_7 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v26_0).slice (win0_7.rect t)).set ↔ _
  rw [View.set_slice_whole, Rect.mem_set_unit]
  exact Iff.rfl

theorem mem_blk0_8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v26_1).slice (win0_8.rect t)).set ↔ _
  rw [View.set_slice_whole, Rect.mem_set_unit]
  exact Iff.rfl

/-- Row `r` of the hidden array is in block `r / 2000`. -/
theorem cover0_7 (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  have ht : (i 0).val / 2000 < cfg0.N := by rw [show cfg0.N = 25 from N_0]; omega
  obtain ⟨-, -, -, -, -, -, -, -, -, -, -, -, -, -, e0, e1, -⟩ := idx0 ⟨(i 0).val / 2000, ht⟩
  refine ⟨⟨(i 0).val / 2000, ht⟩, flush0_7 _, ?_⟩
  rw [mem_blk0_7]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 256 ≤ (i 1).val ∧ (i 1).val < win0_7.index ⟨(i 0).val / 2000, ht⟩ (1 : Fin 2) * 256 + 256
    rw [e1]; omega

theorem cover0_8 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have ht : (i 0).val / 2000 < cfg0.N := by rw [show cfg0.N = 25 from N_0]; omega
  obtain ⟨-, -, -, -, -, -, -, -, -, -, -, -, -, -, -, -, e0, e1⟩ := idx0 ⟨(i 0).val / 2000, ht⟩
  refine ⟨⟨(i 0).val / 2000, ht⟩, flush0_8 _, ?_⟩
  rw [mem_blk0_8]
  intro a
  match a with
  | ⟨0, _⟩ =>
    show win0_8.index ⟨(i 0).val / 2000, ht⟩ (0 : Fin 2) * 2000 ≤ (i 0).val ∧ (i 0).val < win0_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_8.index ⟨(i 0).val / 2000, ht⟩ (1 : Fin 2) * 128 ≤ (i 1).val ∧ (i 1).val < win0_8.index ⟨(i 0).val / 2000, ht⟩ (1 : Fin 2) * 128 + 128
    rw [e1]; omega

/-- Element `(p, q)` of the hidden array's block `t` is the array's element `(2000 t + p, q)`. -/
theorem emb0_7 (t : Fin cfg0.N) (p : Fin 2000) (q : Fin 256) :
    ((cfg0.win 7).blk t).view.emb (ix2 p q) = ix2 (rowAt t.val (lt25_0 t) p) q := by
  obtain ⟨-, -, -, -, -, -, -, -, -, -, -, -, -, -, e0, e1, -⟩ := idx0 t
  funext a; apply Fin.ext
  match a with
  | ⟨0, _⟩ => show win0_7.index t (0 : Fin 2) * 2000 + 1 * p.val = t.val * 2000 + p.val; rw [e0]; omega
  | ⟨1, _⟩ => show win0_7.index t (1 : Fin 2) * 256 + 1 * q.val = q.val; rw [e1]; omega

theorem emb0_8 (t : Fin cfg0.N) (p : Fin 2000) (q : Fin 128) :
    ((cfg0.win 8).blk t).view.emb (ix2 p q) = ix2 (rowAt t.val (lt25_0 t) p) q := by
  obtain ⟨-, -, -, -, -, -, -, -, -, -, -, -, -, -, -, -, e0, e1⟩ := idx0 t
  funext a; apply Fin.ext
  match a with
  | ⟨0, _⟩ => show win0_8.index t (0 : Fin 2) * 2000 + 1 * p.val = t.val * 2000 + p.val; rw [e0]; omega
  | ⟨1, _⟩ => show win0_8.index t (1 : Fin 2) * 128 + 1 * q.val = q.val; rw [e1]; omega

/-- What point `t` writes back to the hidden array is block `t` of the layer-1 formula of the entry arrays. -/
theorem flushed0_7 (c : Dev nD) (t : Fin cfg0.N) :
    (dat0 V c).flushed 7 t = ((cfg0.win 7).blk t).view.read (Elt Ideal)
      (hiddenArr (V c main_v24) (V c main_v12) (V c main_v13) (V c main_arg2) (V c main_v25) (V c main_arg4)) := by
  show (cfg0.win 7).cut (grid0.coords t) ((dat0 V c).after 7 t) = _
  rw [after0_7]
  unfold out0_7
  rw [View.canon_unit_zero hz]
  simp only [View.ld_unit_zero (S := S2000x256) hz, View.ld_unit_zero (S := S2000x1) hz, View.ld_unit_zero (S := S256x256) hz,
    View.ld_unit_zero (S := S1x256) hz]
  refine funext fun (j : S2000x256.Idx) => ?_
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 3 t) (iblk0 V c 5 t) (iblk0 V c 2 t) (iblk0 V c 4 t) (ix2 p q)
    = hiddenArr (V c main_v24) (V c main_v12) (V c main_v13) (V c main_arg2) (V c main_v25) (V c main_arg4)
        (((cfg0.win 7).blk t).view.emb (ix2 p q))
  rw [emb0_7 t p q]
  exact hid_block V c t p q

theorem flushed0_8 (c : Dev nD) (t : Fin cfg0.N) :
    (dat0 V c).flushed 8 t = ((cfg0.win 8).blk t).view.read (Elt Ideal)
      (projArr (hiddenArr (V c main_v24) (V c main_v12) (V c main_v13) (V c main_arg2) (V c main_v25) (V c main_arg4)) (V c main_arg5)) := by
  show (cfg0.win 8).cut (grid0.coords t) ((dat0 V c).after 8 t) = _
  rw [after0_8]
  unfold out0_8
  rw [View.canon_unit_zero hz]
  simp only [View.ld_unit_zero (S := S2000x256) hz, View.ld_unit_zero (S := S2000x1) hz, View.ld_unit_zero (S := S256x256) hz,
    View.ld_unit_zero (S := S1x256) hz, View.ld_unit_zero (S := S256x128) hz]
  refine funext fun (j : S2000x128.Idx) => ?_
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 3 t) (iblk0 V c 5 t) (iblk0 V c 6 t) (iblk0 V c 2 t) (iblk0 V c 4 t) (ix2 p q)
    = projArr (hiddenArr (V c main_v24) (V c main_v12) (V c main_v13) (V c main_arg2) (V c main_v25) (V c main_arg4)) (V c main_arg5)
        (((cfg0.win 8).blk t).view.emb (ix2 p q))
  rw [emb0_8 t p q]
  exact proj_block V c t p q

/-- THE HIDDEN ARRAY after region 0: the layer-1 formula of the entry arrays, at every index. -/
theorem final0_7 (c : Dev nD) : (dat0 V c).arrAt 7 cfg0.N
    = hiddenArr (V c main_v24) (V c main_v12) (V c main_v13) (V c main_arg2) (V c main_v25) (V c main_arg4) :=
  (dat0 V c).arrAt_eq_of_cover 7 _ (fun t _ => flushed0_7 V c t) cover0_7

/-- THE PROJECTED ARRAY after region 0: the hidden formula through the second layer's left weights. -/
theorem final0_8 (c : Dev nD) : (dat0 V c).arrAt 8 cfg0.N
    = projArr (hiddenArr (V c main_v24) (V c main_v12) (V c main_v13) (V c main_arg2) (V c main_v25) (V c main_arg4)) (V c main_arg5) :=
  (dat0 V c).arrAt_eq_of_cover 8 _ (fun t _ => flushed0_8 V c t) cover0_8

/-! ## Region 1 -/

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem read1_0 (c : Dev nD) (t : Fin cfg1.N) (p : Fin 2000) (q : Fin 128) :
    iblk1 V c 0 t (ix2 p q) = V c main_v37 (ix2 (rowAt t.val (lt25_1 t) p) q) := by
  show V c main_v37 (((cfg1.win 0).blk t).view.emb (ix2 p q)) = V c main_v37 _
  obtain ⟨e0, e1, -⟩ := idx1 t
  have h : ((cfg1.win 0).blk t).view.emb (ix2 p q) = ix2 (rowAt t.val (lt25_1 t) p) q := by
    funext a; apply Fin.ext
    match a with
    | ⟨0, _⟩ => show win1_0.index t (0 : Fin 2) * 2000 + 1 * p.val = t.val * 2000 + p.val; rw [e0]; omega
    | ⟨1, _⟩ => show win1_0.index t (1 : Fin 2) * 128 + 1 * q.val = q.val; rw [e1]; omega
  rw [h]

theorem read1_1 (c : Dev nD) (t : Fin cfg1.N) (p : Fin 2000) :
    iblk1 V c 1 t (ix2 p (0 : Fin 1)) = V c main_v12 (ix2 (rowAt t.val (lt25_1 t) p) (0 : Fin 1)) := by
  show V c main_v12 (((cfg1.win 1).blk t).view.emb (ix2 p (0 : Fin 1))) = V c main_v12 _
  obtain ⟨-, -, e0, e1, -⟩ := idx1 t
  have h : ((cfg1.win 1).blk t).view.emb (ix2 p (0 : Fin 1)) = ix2 (rowAt t.val (lt25_1 t) p) (0 : Fin 1) := by
    funext a; apply Fin.ext
    match a with
    | ⟨0, _⟩ => show win1_1.index t (0 : Fin 2) * 2000 + 1 * p.val = t.val * 2000 + p.val; rw [e0]; omega
    | ⟨1, _⟩ => show win1_1.index t (1 : Fin 2) * 1 + 1 * 0 = 0; rw [e1]
  rw [h]

theorem read1_2 (c : Dev nD) (t : Fin cfg1.N) (p : Fin 2000) (k : Fin 256) :
    iblk1 V c 2 t (ix2 p k) = V c main_v26_0 (ix2 (rowAt t.val (lt25_1 t) p) k) := by
  show V c main_v26_0 (((cfg1.win 2).blk t).view.emb (ix2 p k)) = V c main_v26_0 _
  obtain ⟨-, -, -, -, e0, e1, -⟩ := idx1 t
  have h : ((cfg1.win 2).blk t).view.emb (ix2 p k) = ix2 (rowAt t.val (lt25_1 t) p) k := by
    funext a; apply Fin.ext
    match a with
    | ⟨0, _⟩ => show win1_2.index t (0 : Fin 2) * 2000 + 1 * p.val = t.val * 2000 + p.val; rw [e0]; omega
    | ⟨1, _⟩ => show win1_2.index t (1 : Fin 2) * 256 + 1 * k.val = k.val; rw [e1]; omega
  rw [h]

theorem read1_3 (c : Dev nD) (t : Fin cfg1.N) (k : Fin 256) (q : Fin 128) :
    iblk1 V c 3 t (ix2 k q) = V c main_arg7 (ix2 k q) := by
  show V c main_arg7 (((cfg1.win 3).blk t).view.emb (ix2 k q)) = V c main_arg7 _
  obtain ⟨-, -, -, -, -, -, e0, e1, -⟩ := idx1 t
  have h : ((cfg1.win 3).blk t).view.emb (ix2 k q) = ix2 k q := by
    funext a; apply Fin.ext
    match a with
    | ⟨0, _⟩ => show win1_3.index t (0 : Fin 2) * 256 + 1 * k.val = k.val; rw [e0]; omega
    | ⟨1, _⟩ => show win1_3.index t (1 : Fin 2) * 128 + 1 * q.val = q.val; rw [e1]; omega
  rw [h]

theorem read1_4 (c : Dev nD) (t : Fin cfg1.N) (q : Fin 128) :
    iblk1 V c 4 t (ix2 (0 : Fin 1) q) = V c main_v38 (ix2 (0 : Fin 1) q) := by
  show V c main_v38 (((cfg1.win 4).blk t).view.emb (ix2 (0 : Fin 1) q)) = V c main_v38 _
  obtain ⟨-, -, -, -, -, -, -, -, e0, e1, -⟩ := idx1 t
  have h : ((cfg1.win 4).blk t).view.emb (ix2 (0 : Fin 1) q) = ix2 (0 : Fin 1) q := by
    funext a; apply Fin.ext
    match a with
    | ⟨0, _⟩ => show win1_4.index t (0 : Fin 2) * 1 + 1 * 0 = 0; rw [e0]
    | ⟨1, _⟩ => show win1_4.index t (1 : Fin 2) * 128 + 1 * q.val = q.val; rw [e1]; omega
  rw [h]

/-- The result block at `(p, q)` is the layer-2 formula at row `2000 t + p` of region 1's entry arrays. -/
theorem out_block (c : Dev nD) (t : Fin cfg1.N) (p : Fin 2000) (q : Fin 128) :
    k1_pay1 (F := Ideal) (iblk1 V c 0 t) (iblk1 V c 1 t) (iblk1 V c 3 t) (iblk1 V c 4 t) (iblk1 V c 2 t) (ix2 p q)
      = outArr (V c main_v37) (V c main_v12) (V c main_v26_0) (V c main_arg7) (V c main_v38) (ix2 (rowAt t.val (lt25_1 t) p) q) := by
  refine (Body.pay_out _ _ _ _ _ p q).trans ?_
  simp only [read1_0 V c t, read1_1 V c t, read1_2 V c t, read1_3 V c t, read1_4 V c t]
  rfl

theorem mem_blk1_5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v39).slice (win1_5.rect t)).set ↔ _
  rw [View.set_slice_whole, Rect.mem_set_unit]
  exact Iff.rfl

theorem cover1_5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, -, -, -, -, -, -, e0, e1⟩ := idx1 ⟨(i 0).val / 2000, ht⟩
  refine ⟨⟨(i 0).val / 2000, ht⟩, flush1_5 _, ?_⟩
  rw [mem_blk1_5]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]; omega

theorem emb1_5 (t : Fin cfg1.N) (p : Fin 2000) (q : Fin 128) :
    ((cfg1.win 5).blk t).view.emb (ix2 p q) = ix2 (rowAt t.val (lt25_1 t) p) q := by
  obtain ⟨-, -, -, -, -, -, -, -, -, -, e0, e1⟩ := idx1 t
  funext a; apply Fin.ext
  match a with
  | ⟨0, _⟩ => show win1_5.index t (0 : Fin 2) * 2000 + 1 * p.val = t.val * 2000 + p.val; rw [e0]; omega
  | ⟨1, _⟩ => show win1_5.index t (1 : Fin 2) * 128 + 1 * q.val = q.val; rw [e1]; omega

theorem flushed1_5 (c : Dev nD) (t : Fin cfg1.N) :
    (dat1 V c).flushed 5 t = ((cfg1.win 5).blk t).view.read (Elt Ideal)
      (outArr (V c main_v37) (V c main_v12) (V c main_v26_0) (V c main_arg7) (V c main_v38)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S256x128) hz,
    View.ld_unit_zero (S := S1x128) hz, View.ld_unit_zero (S := S2000x256) hz]
  refine funext fun (j : S2000x128.Idx) => ?_
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 3 t) (iblk1 V c 4 t) (iblk1 V c 2 t) (ix2 p q)
    = outArr (V c main_v37) (V c main_v12) (V c main_v26_0) (V c main_arg7) (V c main_v38) (((cfg1.win 5).blk t).view.emb (ix2 p q))
  rw [emb1_5 t p q]
  exact out_block V c t p q

/-- THE RESULT ARRAY after region 1: the layer-2 formula of region 1's entry arrays, at every index. -/
theorem final1_5 (c : Dev nD) : (dat1 V c).arrAt 5 cfg1.N
    = outArr (V c main_v37) (V c main_v12) (V c main_v26_0) (V c main_arg7) (V c main_v38) :=
  (dat1 V c).arrAt_eq_of_cover 5 _ (fun t _ => flushed1_5 V c t) cover1_5

end Cert.Sage.Blocks

end
-- ==== Proof.KernelValue.lean ====
/-
  The kernel program's result array, from the two regions' entry arrays.

  Region 1 leaves the layer-2 formula of its entry arrays in the result; two of those entry arrays are what region 0
  left (the hidden rows, and — gathered and summed per target by the host in between — the projected rows), which
  are the layer-1 formula and its projection of region 0's entry arrays. Substituting, the result is the function
  `G` of Proof/Spec.lean of the program's arguments. Stated here for any source- and target-index arrays and
  argument arrays that the entry arrays are the stated functions of; Proof.lean supplies those facts.
-/
import proofs.«175912_j5995774346006_2_alg».proof.Proof.Gen.KernelIdeal.Frame
import proofs.«175912_j5995774346006_2_alg».proof.Proof.KernelBlocks
import proofs.«175912_j5995774346006_2_alg».proof.Proof.Spec

set_option maxRecDepth 16384

noncomputable section

open scoped BigOperators

namespace Cert.Sage.KValue

open Idealize.ShloMosaic Idealize.ShloMosaic.ValueIdx Idealize.ShloMosaic.TcCoe Idealize.SL.Sem
open Cert.KernelIdeal Cert.KernelIdeal.Gen Cert.Sage Cert.Sage.Blocks

variable (m : (ℓ : Loc nD τ sig) → Buf (Elt Ideal) ℓ) (ρ : Dev nD → PrngReg) (c : Dev nD)

/-- The hidden array after region 0 is the layer-1 formula of region 0's entry arrays. -/
theorem hidden_after0 : (W2 m ρ c (Proc.devRef .tc main_v26_0) : S50000x256.Idx → EReal)
    = hiddenArr (V1 m ρ c main_v24) (V1 m ρ c main_v12) (V1 m ρ c main_v13) (V1 m ρ c main_arg2) (V1 m ρ c main_v25) (V1 m ρ c main_arg4) :=
  (W2_arr m ρ c 7).trans (final0_7 (V1 m ρ) c)

/-- The projected array after region 0 is that formula through the second layer's left weights. -/
theorem proj_after0 : (W2 m ρ c (Proc.devRef .tc main_v26_1) : S50000x128.Idx → EReal)
    = projArr (hiddenArr (V1 m ρ c main_v24) (V1 m ρ c main_v12) (V1 m ρ c main_v13) (V1 m ρ c main_arg2) (V1 m ρ c main_v25) (V1 m ρ c main_arg4))
        (V1 m ρ c main_arg5) :=
  (W2_arr m ρ c 8).trans (final0_8 (V1 m ρ) c)

/-- The result array after region 1 is the layer-2 formula of region 1's entry arrays. -/
theorem result_after1 : (W4 m ρ c (Proc.devRef .tc main_v39) : S50000x128.Idx → EReal)
    = outArr (V3 m ρ c main_v37) (V3 m ρ c main_v12) (V3 m ρ c main_v26_0) (V3 m ρ c main_arg7) (V3 m ρ c main_v38) :=
  (W4_arr m ρ c 5).trans (final1_5 (V3 m ρ) c)

/-- The result is `G` of the arguments, given what the host stretches put in the regions' entry arrays. -/
theorem value_of_entries
    (a0 : S50000x256.Idx → EReal) (sI dI : S800000x1.Idx → BitVec 32) (a2 : S256x256.Idx → EReal) (a3 : S256.Idx → EReal)
    (a4 : S256x256.Idx → EReal) (a5 : S256x128.Idx → EReal) (a6 : S128.Idx → EReal) (a7 : S256x128.Idx → EReal)
    (hA : (V1 m ρ c main_v24 : S50000x256.Idx → EReal) = fun i => agg1 a0 sI dI (i 0) (i 1))
    (hS : (V1 m ρ c main_v12 : S50000x1.Idx → EReal) = fun i => Ideal.div 1 (cmax dI (i 0)))
    (hX : (V1 m ρ c main_v13 : S50000x256.Idx → EReal) = a0)
    (hB : (V1 m ρ c main_v25 : S1x256.Idx → EReal) = fun i => a3 (ix1 (i 1)))
    (hWl : (V1 m ρ c main_arg2 : S256x256.Idx → EReal) = a2)
    (hWr : (V1 m ρ c main_arg4 : S256x256.Idx → EReal) = a4)
    (hW2 : (V1 m ρ c main_arg5 : S256x128.Idx → EReal) = a5)
    (hA2 : (V3 m ρ c main_v37 : S50000x128.Idx → EReal)
      = fun i => seg dI (i 0) (fun e => (W2 m ρ c (Proc.devRef .tc main_v26_1) : S50000x128.Idx → EReal) (ix2 (row sI e) (i 1))))
    (hS' : (V3 m ρ c main_v12 : S50000x1.Idx → EReal) = V1 m ρ c main_v12)
    (hH : (V3 m ρ c main_v26_0 : S50000x256.Idx → EReal) = W2 m ρ c (Proc.devRef .tc main_v26_0))
    (hW7 : (V3 m ρ c main_arg7 : S256x128.Idx → EReal) = a7)
    (hB2 : (V3 m ρ c main_v38 : S1x128.Idx → EReal) = fun i => a6 (ix1 (i 1))) :
    (W4 m ρ c (Proc.devRef .tc main_v39) : S50000x128.Idx → EReal) = G a0 sI dI a2 a3 a4 a5 a6 a7 := by
  rw [result_after1, hA2, hS', hH, hW7, hB2, hidden_after0, proj_after0, hA, hS, hX, hB, hWl, hWr, hW2]
  funext i
  obtain ⟨r, j, rfl⟩ : ∃ (r : Fin 50000) (j : Fin 128), i = ix2 r j := ⟨i 0, i 1, eq_ix2 i⟩
  rfl

end Cert.Sage.KValue

end
-- ==== Proof.KernelIdx.lean ====
/-
  The two index columns the tiled program's host operations compute from the edge array `[2, 800000]`: the source
  indices (row 0, a negative index wrapped by adding the node count) and the target indices (row 1), each as a
  column `[800000, 1]` — the operations' own terms.
-/
import proofs.«175912_j5995774346006_2_alg».proof.Proof.Gen.KernelIdeal

noncomputable section

namespace Cert.Sage.KHost

open Idealize.ShloMosaic Cert.KernelIdeal Cert.KernelIdeal.Gen

/-- Row 0 of the edge array as a vector of 800000 words: the slice of that row, reshaped. -/
def edgeRow0 (a1 : IVec S2x800000 32) : IVec S800000 32 :=
  shapeCast S800000 (extractStridedSlice S1x800000 ![0, 0] a1 slices_S2x800000_S1x800000_0_0) shapeCasts_S1x800000_S800000

/-- Row 1 of the edge array as a vector of 800000 words: the slice of that row, reshaped. -/
def edgeRow1 (a1 : IVec S2x800000 32) : IVec S800000 32 :=
  shapeCast S800000 (extractStridedSlice S1x800000 ![1, 0] a1 slices_S2x800000_S1x800000_1_0) shapeCasts_S1x800000_S800000

/-- The source indices as the host computes them: row 0 of the edge array, a negative index wrapped by adding 50000,
    as a column `[800000, 1]`. -/
def srcIK (a1 : IVec S2x800000 32) : IVec S800000x1 32 :=
  broadcastInDim S800000x1 ![0] bcast_S800000_S800000x1_0
    (select (cmpi .slt (edgeRow0 a1) (broadcastInDim S800000 ![] bcast_S_S800000 (constantI S_ 32 0#32)))
      (addi (edgeRow0 a1) (broadcastInDim S800000 ![] bcast_S_S800000 (constantI S_ 32 50000#32)))
      (edgeRow0 a1))

/-- The target indices as the host computes them: row 1 of the edge array as a column `[800000, 1]`. -/
def dstIK (a1 : IVec S2x800000 32) : IVec S800000x1 32 :=
  broadcastInDim S800000x1 ![0] bcast_S800000_S800000x1_0 (edgeRow1 a1)

end Cert.Sage.KHost

end
-- ==== Proof.KernelHost.lean ====
/-
  The tiled program's first stretch of host operations, read at an index over the extended reals: what each array
  handed to the first tiled region holds when the region is entered, in terms of the launch contents.

    the aggregate        [50000, 256]   at (r, k): the sum over the edges into r of the source row's column k
    the reciprocal count [50000, 1]     at (r, 0): one over the larger of one and the number of edges into r
    the node features    [50000, 256]   the launch contents (a format change is the identity on extended reals)
    the first bias       [1, 256]       at (0, j): the bias vector's element j
    the three weight matrices           the launch contents (no host operation writes an argument)
-/
import proofs.«175912_j5995774346006_2_alg».proof.Proof.Gen.KernelIdeal.Frame
import proofs.«175912_j5995774346006_2_alg».proof.Proof.Spec
import proofs.«175912_j5995774346006_2_alg».proof.Proof.LibScatterRows
import proofs.«175912_j5995774346006_2_alg».proof.Proof.KernelIdx
import Idealize.ShloMosaic.Lib.StableHlo.Run
import Idealize.ShloMosaic.Lib.Pipeline.Value
import Idealize.ShloMosaic.Lib.ValueLayout

noncomputable section

namespace Cert.Sage.KHost

open Idealize.ShloMosaic Idealize.ShloMosaic.ValueIdx Idealize.ShloMosaic.TcCoe Cert.KernelIdeal Cert.KernelIdeal.Gen
open scoped BigOperators

variable (m : (ℓ : Loc nD τ sig) → Buf (Elt Ideal) ℓ) (ρ : Dev nD → PrngReg) (c : Dev nD)

/-! ## The program's scatters and gather read at an index -/

/-- The count scatter read at node `r`: the operand's element plus the updates of the edges into `r`. -/
theorem scatterVec_apply (x : S50000.Idx → EReal) (idx : IVec S800000x1 32) (upd : S800000.Idx → EReal) (r : Fin 50000) :
    Host.scatterAdd (F := Ideal) (φ := .f32) scatter_S50000_S800000x1_S800000_n_0_0_1 x idx upd (ix1 r)
      = x (ix1 r) + ∑ e : Fin 800000, if (idx (ix2 e 0)).toInt = (r.val : ℤ) then upd (ix1 e) else 0 := by
  unfold Host.scatterAdd scatter_S50000_S800000x1_S800000_n_0_0_1
  rw [Ideal.hostScatterAdd_def]
  exact Cert.ScatterRows.scatterAdd_vec_apply _ x idx upd r

/-- The row scatter at width 256 read at `(r, k)`: the operand's element plus the updates' column `k` over the edges
    into `r`. -/
theorem scatterRows256_apply (x : S50000x256.Idx → EReal) (idx : IVec S800000x1 32) (upd : S800000x256.Idx → EReal)
    (r : Fin 50000) (k : Fin 256) :
    Host.scatterAdd (F := Ideal) (φ := .f32) scatter_S50000x256_S800000x1_S800000x256_1_0_0_1 x idx upd (ix2 r k)
      = x (ix2 r k) + ∑ e : Fin 800000, if (idx (ix2 e 0)).toInt = (r.val : ℤ) then upd (ix2 e k) else 0 := by
  unfold Host.scatterAdd scatter_S50000x256_S800000x1_S800000x256_1_0_0_1
  rw [Ideal.hostScatterAdd_def]
  exact Cert.ScatterRows.scatterAdd_rows_apply _ x idx upd r k

/-- The row gather at width 256 read at `(e, k)`: column `k` of the row at edge `e`'s source row. -/
theorem gatherRows256_apply (x : S50000x256.Idx → EReal) (idx : IVec S800000x1 32) (e : Fin 800000) (k : Fin 256) :
    Host.gather gather_S50000x256_S800000x1_S800000x256_1_0_n_n_0_1_1256 x idx (ix2 e k)
      = x (ix2 (Cert.Sage.row idx e) k) := by
  unfold gather_S50000x256_S800000x1_S800000x256_1_0_n_n_0_1_1256
  exact Cert.ScatterRows.gather_rows_apply (by norm_num) _ x idx e k

/-- A row scatter-add into zeros of the gathered source rows is the segment sum of the source rows: at `(r, k)`, the
    sum over the edges into `r` of column `k` of the edge's source row (the two format changes are the identity on
    extended reals). -/
theorem segsum_rows256 (r : Fin 50000) (k : Fin 256) (I S : IVec S800000x1 32) (A : S50000x256.Idx → EReal) :
    Host.scatterAdd (F := Ideal) (φ := .f32) scatter_S50000x256_S800000x1_S800000x256_1_0_0_1
      (broadcastInDim S50000x256 ![] bcast_S_S50000x256 (constant (F := Ideal) S_ .f32 0#32)) I
      (extf .f32 (Host.gather gather_S50000x256_S800000x1_S800000x256_1_0_n_n_0_1_1256 (truncf .bf16 A bitsLt_bf16_f32) S)
        bitsLt_bf16_f32) (ix2 r k)
    = Cert.Sage.agg1 A S I r k := by
  rw [scatterRows256_apply, broadcastInDim_scalar_apply, constant_apply, Ideal.ofBits_zero_f32, zero_add]
  unfold Cert.Sage.agg1 Cert.Sage.seg
  refine Finset.sum_congr rfl (fun e _ => ?_)
  rw [extf_apply, gatherRows256_apply]
  rfl

/-- One over the larger of one and a scatter-add of ones into zeros is the reciprocal of the count: at node `r`, one
    over the larger of one and the number of edges into `r`. -/
theorem recip_count (r : Fin 50000) (I : IVec S800000x1 32) :
    Host.divf (broadcastInDim S50000 ![] bcast_S_S50000 (constant (F := Ideal) S_ .f32 0x3F800000#32))
      (maximumf
        (Host.scatterAdd (F := Ideal) (φ := .f32) scatter_S50000_S800000x1_S800000_n_0_0_1
          (broadcastInDim S50000 ![] bcast_S_S50000 (constant (F := Ideal) S_ .f32 0x00000000#32)) I
          (broadcastInDim S800000 ![] bcast_S_S800000 (constant (F := Ideal) S_ .f32 0x3F800000#32)))
        (broadcastInDim S50000 ![] bcast_S_S50000 (constant (F := Ideal) S_ .f32 0x3F800000#32))) (ix1 r)
    = Ideal.div 1 (Cert.Sage.cmax I r) := by
  rw [hostDivf_apply, maximumf_apply, broadcastInDim_scalar_apply, constant_apply, Ideal.ofBits_one_f32,
    scatterVec_apply, broadcastInDim_scalar_apply, constant_apply, Ideal.ofBits_zero_f32, zero_add]
  unfold Cert.Sage.cmax Cert.Sage.seg
  refine congrArg (fun t => Ideal.div 1 (max t 1)) ?_
  refine Finset.sum_congr rfl (fun e _ => ?_)
  rw [broadcastInDim_scalar_apply, constant_apply, Ideal.ofBits_one_f32]

/-! ## The arrays at the first region's entry -/

/-- (E0a) The aggregate: at node `r`, column `k`, the sum of the source rows' column `k` over the edges into `r`. -/
theorem V1_v24 : (V1 m ρ c main_v24 : S50000x256.Idx → EReal)
    = fun i => Cert.Sage.agg1 (m ((c : Thread nD τ).loc main_arg0)) (srcIK (m ((c : Thread nD τ).loc main_arg1)))
        (dstIK (m ((c : Thread nD τ).loc main_arg1))) (i 0) (i 1) := by
  show StableHlo.after hostOps0 (W0 m ρ c) (Proc.devRef .tc main_v24) = _
  after_results_simp
  funext i
  obtain ⟨r, k, rfl⟩ : ∃ r k, i = ix2 r k := ⟨_, _, eq_ix2 i⟩
  exact segsum_rows256 r k (dstIK (m ((c : Thread nD τ).loc main_arg1))) (srcIK (m ((c : Thread nD τ).loc main_arg1)))
    (m ((c : Thread nD τ).loc main_arg0))

/-- (E0b) The reciprocal-count column: at node `r`, one over the larger of one and the number of edges into `r`. -/
theorem V1_v12 : (V1 m ρ c main_v12 : S50000x1.Idx → EReal)
    = fun i => Ideal.div 1 (Cert.Sage.cmax (dstIK (m ((c : Thread nD τ).loc main_arg1))) (i 0)) := by
  show StableHlo.after hostOps0 (W0 m ρ c) (Proc.devRef .tc main_v12) = _
  after_results
  funext i
  obtain ⟨r, u, rfl⟩ : ∃ r u, i = ix2 r u := ⟨_, _, eq_ix2 i⟩
  refine (shapeCast_apply _ _ (ix2 r u) (ix1 r) ?_).trans ?_
  · have hu : u.val = 0 := by omega
    rw [Shape.rowMajor_val_two, Shape.rowMajor_val_one]
    show r.val = r.val * 1 + u.val
    omega
  · exact recip_count r (dstIK (m ((c : Thread nD τ).loc main_arg1)))

/-- (E0c) The node features in the narrow format are the launch node features (the format change is the identity). -/
theorem V1_v13 : (V1 m ρ c main_v13 : S50000x256.Idx → EReal) = m ((c : Thread nD τ).loc main_arg0) := by
  show StableHlo.after hostOps0 (W0 m ρ c) (Proc.devRef .tc main_v13) = _
  after_results
  rfl

/-- (E0d) The first bias as a row `[1, 256]`: at `(0, j)`, the bias vector's element `j`. -/
theorem V1_v25 : (V1 m ρ c main_v25 : S1x256.Idx → EReal)
    = fun i => (m ((c : Thread nD τ).loc main_arg3) : S256.Idx → EReal) (ix1 (i 1)) := by
  show StableHlo.after hostOps0 (W0 m ρ c) (Proc.devRef .tc main_v25) = _
  after_results
  funext i
  obtain ⟨u, k, rfl⟩ : ∃ u k, i = ix2 u k := ⟨_, _, eq_ix2 i⟩
  exact shapeCast_a_1a_apply _ _ u k

/-- (E0e) The first layer's neighbour weights are as launched. -/
theorem V1_arg2 : (V1 m ρ c main_arg2 : S256x256.Idx → EReal) = m ((c : Thread nD τ).loc main_arg2) := by
  show StableHlo.after hostOps0 (W0 m ρ c) (Proc.devRef .tc main_arg2) = _
  after_results

/-- (E0e) The first layer's self weights are as launched. -/
theorem V1_arg4 : (V1 m ρ c main_arg4 : S256x256.Idx → EReal) = m ((c : Thread nD τ).loc main_arg4) := by
  show StableHlo.after hostOps0 (W0 m ρ c) (Proc.devRef .tc main_arg4) = _
  after_results

/-- (E0e) The second layer's neighbour weights are as launched. -/
theorem V1_arg5 : (V1 m ρ c main_arg5 : S256x128.Idx → EReal) = m ((c : Thread nD τ).loc main_arg5) := by
  show StableHlo.after hostOps0 (W0 m ρ c) (Proc.devRef .tc main_arg5) = _
  after_results

end Cert.Sage.KHost

end
-- ==== Proof.KernelHost1.lean ====
/-
  What the second region finds in its entry arrays.

  Between the two regions the tiled program runs fifteen host operations: they recompute the two index columns from
  the rows of the edge array, gather the projected rows region 0 wrote at the source indices, widen them, add them
  into their target rows starting from zeros (a segment sum), and lay the second bias out as one row. Read at an
  index, the aggregate is the sum over the edges into the row of the source's projected row; every other array
  region 1 reads is one no operation of the stretch writes, and comes through as region 0 left it or as launched.
-/
import proofs.«175912_j5995774346006_2_alg».proof.Proof.Gen.KernelIdeal.Frame
import proofs.«175912_j5995774346006_2_alg».proof.Proof.KernelIdx
import proofs.«175912_j5995774346006_2_alg».proof.Proof.Spec
import proofs.«175912_j5995774346006_2_alg».proof.Proof.LibScatterRows
import Idealize.ShloMosaic.Lib.StableHlo.Run
import Idealize.ShloMosaic.Lib.Pipeline.Value
import Idealize.ShloMosaic.Lib.ValueLayout

set_option maxRecDepth 16384

noncomputable section

open scoped BigOperators

namespace Cert.Sage.KHost1

open Idealize.ShloMosaic Idealize.ShloMosaic.ValueIdx Idealize.ShloMosaic.TcCoe Idealize.SL.Sem Cert.KernelIdeal Cert.KernelIdeal.Gen Cert.Sage.KHost

variable (m : (ℓ : Loc nD τ sig) → Buf (Elt Ideal) ℓ) (ρ : Dev nD → PrngReg) (c : Dev nD)

/-! ## Buffers a stretch of host operations does not write -/

/-- The second stretch leaves a buffer it does not write as region 0 left it. -/
local macro "keeps1" : tactic => `(tactic| (
  refine StableHlo.after_of_forall_not_mem _ _ (List.forall_iff_forall_mem.mp ?_)
  simp only [hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The first stretch leaves a buffer it does not write as launched. -/
local macro "keeps0" : tactic => `(tactic| (
  refine StableHlo.after_of_forall_not_mem _ _ (List.forall_iff_forall_mem.mp ?_)
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- (E1c) The hidden rows region 0 wrote reach region 1 unchanged. -/
theorem E1c : (V3 m ρ c main_v26_0 : S50000x256.Idx → EReal) = W2 m ρ c (Proc.devRef .tc main_v26_0) := by
  show StableHlo.after hostOps1 (W2 m ρ c) (Proc.devRef .tc main_v26_0) = _
  keeps1

/-- The last weight matrix, as launched, at region 0's exit. -/
theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _
          keeps0
    _ = m ((c : Thread nD τ).loc main_arg7) := rfl

/-- (E1d) Region 1 finds the last weight matrix as launched. -/
theorem E1d : (V3 m ρ c main_arg7 : S256x128.Idx → EReal) = m ((c : Thread nD τ).loc main_arg7) := by
  show StableHlo.after hostOps1 (W2 m ρ c) (Proc.devRef .tc main_arg7) = _
  refine Eq.trans ?_ (W2_arg7 m ρ c)
  keeps1

/-- The second bias, as launched, at region 0's exit. -/
theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = _
          keeps0
    _ = m ((c : Thread nD τ).loc main_arg6) := rfl

/-- (E1e) Region 1 finds the second bias as one row. -/
theorem E1e : (V3 m ρ c main_v38 : S1x128.Idx → EReal)
    = fun i => (m ((c : Thread nD τ).loc main_arg6) : S128.Idx → EReal) (ix1 (i 1)) := by
  show StableHlo.after hostOps1 (W2 m ρ c) (Proc.devRef .tc main_v38) = _
  after_results
  funext i
  obtain ⟨u, j, rfl⟩ : ∃ (u : Fin 1) (j : Fin 128), i = ix2 u j := ⟨i 0, i 1, eq_ix2 i⟩
  show shapeCast ⟨2, ![1, 128]⟩ (W2 m ρ c (Proc.devRef .tc main_arg6)) shapeCasts_S128_S1x128 (ix2 u j) = _
  rw [shapeCast_a_1a_apply, W2_arg6]
  rfl

/-- (E1b) The reciprocal counts region 0 read through an input window reach region 1 as region 0 found them. -/
theorem E1b : (V3 m ρ c main_v12 : S50000x1.Idx → EReal) = V1 m ρ c main_v12 := by
  show StableHlo.after hostOps1 (W2 m ρ c) (Proc.devRef .tc main_v12) = W1 m ρ c (Proc.devRef .tc main_v12)
  refine Eq.trans ?_ ((W2_arr m ρ c 1).trans (((dat0 (V1 m ρ) c).arrAt_in 1 rfl _).trans (A_eq0 (V1 m ρ) c 1)))
  keeps1

/-! ## The two rows of the edge array, at region 0's exit -/

/-- Row 0 of the edge array, which the first stretch wrote and region 0 does not touch. -/
theorem W2_v1 : W2 m ρ c (Proc.devRef .tc main_v1) = edgeRow0 (m ((c : Thread nD τ).loc main_arg1)) := by
  refine (W2_of_ne m ρ c main_v1 (by decide)).trans ?_
  show StableHlo.after hostOps0 (W0 m ρ c) (Proc.devRef .tc main_v1) = _
  after_results
  rfl

/-- Row 1 of the edge array, likewise. -/
theorem W2_v3 : W2 m ρ c (Proc.devRef .tc main_v3) = edgeRow1 (m ((c : Thread nD τ).loc main_arg1)) := by
  refine (W2_of_ne m ρ c main_v3 (by decide)).trans ?_
  show StableHlo.after hostOps0 (W0 m ρ c) (Proc.devRef .tc main_v3) = _
  after_results
  rfl

/-! ## A segment sum of gathered rows, width 128 -/

/-- A row scatter-add into zeros of the (widened) rows a row gather reads: at (r, k), the sum over the edges into r of
    column k of the edge's source row. Generic in the gathered array and the two index columns. -/
theorem segsum_rows128 (x : S50000x128.Idx → EReal) (srcI dstI : Cert.Sage.EdgeIdx → BitVec 32)
    (zeros : S50000x128.Idx → EReal) (hz : ∀ i, zeros i = 0) (r : Fin 50000) (k : Fin 128) :
    Host.scatterAdd (F := Ideal) (φ := .f32) scatter_S50000x128_S800000x1_S800000x128_1_0_0_1 zeros dstI
        (extf (F := Ideal) (φ := .bf16) .f32
          (Host.gather gather_S50000x128_S800000x1_S800000x128_1_0_n_n_0_1_1128 x srcI) bitsLt_bf16_f32) (ix2 r k)
      = Cert.Sage.seg dstI r fun e => x (ix2 (Cert.Sage.row srcI e) k) := by
  have h := Cert.ScatterRows.scatterAdd_rows_apply (N := 50000) (E := 800000) (D := 128)
    Facts₀.scatter_S50000x128_S800000x1_S800000x128_1_0_0_1_wf zeros dstI
    (Host.gather gather_S50000x128_S800000x1_S800000x128_1_0_n_n_0_1_1128 x srcI) r k
  have h' : Host.scatterAdd (F := Ideal) (φ := .f32) scatter_S50000x128_S800000x1_S800000x128_1_0_0_1 zeros dstI
        (extf (F := Ideal) (φ := .bf16) .f32
          (Host.gather gather_S50000x128_S800000x1_S800000x128_1_0_n_n_0_1_1128 x srcI) bitsLt_bf16_f32) (ix2 r k)
      = zeros (ix2 r k) + ∑ e : Fin 800000, if (dstI (ix2 e 0)).toInt = (r.val : ℤ)
          then Host.gather gather_S50000x128_S800000x1_S800000x128_1_0_n_n_0_1_1128 x srcI (ix2 e k) else 0 := h
  rw [h', hz, zero_add]
  unfold Cert.Sage.seg
  refine Finset.sum_congr rfl fun e _ => ?_
  have hg : Host.gather gather_S50000x128_S800000x1_S800000x128_1_0_n_n_0_1_1128 x srcI (ix2 e k)
      = x (ix2 (Cert.Sage.row srcI e) k) :=
    Cert.ScatterRows.gather_rows_apply (N := 50000) (E := 800000) (D := 128) (by decide)
      Facts₀.gather_S50000x128_S800000x1_S800000x128_1_0_n_n_0_1_1128_wf x srcI e k
  rw [hg]

/-! ## The aggregate of the projected rows -/

/-- (E1a) Region 1 finds, at (r, k), the sum over the edges into r of column k of the projected row region 0 wrote
    for the edge's source. -/
theorem E1a : (V3 m ρ c main_v37 : S50000x128.Idx → EReal)
    = fun i => Cert.Sage.seg (dstIK (m ((c : Thread nD τ).loc main_arg1))) (i 0)
        (fun e => (W2 m ρ c (Proc.devRef .tc main_v26_1) : S50000x128.Idx → EReal)
          (ix2 (Cert.Sage.row (srcIK (m ((c : Thread nD τ).loc main_arg1))) e) (i 1))) := by
  show StableHlo.after hostOps1 (W2 m ρ c) (Proc.devRef .tc main_v37) = _
  after_results_simp
  rw [W2_v1, W2_v3]
  funext i
  obtain ⟨r, k, rfl⟩ : ∃ (r : Fin 50000) (k : Fin 128), i = ix2 r k := ⟨i 0, i 1, eq_ix2 i⟩
  refine segsum_rows128 (W2 m ρ c (Proc.devRef .tc main_v26_1)) (srcIK (m ((c : Thread nD τ).loc main_arg1)))
    (dstIK (m ((c : Thread nD τ).loc main_arg1))) _ ?_ r k
  intro i
  show Ideal.ofBits .f32 0x00000000#32 = 0
  exact Cert.ScatterRows.ofBits_zero_f32'

end Cert.Sage.KHost1

end
-- ==== Proof.lean ====
/-
  The certificate of a two-layer mean-aggregating graph convolution (50000 nodes, 800000 edges, 256 → 256 → 128
  features) computed by two row-tiled kernels with host gathers and scatter-adds around them, against the plain
  formula.

  Both programs sum, for every node, the rows of its in-neighbours (a gather of source rows scattered onto target
  rows), divide by the in-degree (at least one), and combine the mean with the node's own row through two weight
  matrices and a bias; layer 1 ends in a clamp at zero, layer 2 in the logistic function. The tiled program differs in
  three ways: it multiplies by the reciprocal of the degree instead of dividing; it adds the bias after the two
  products instead of between them; and in layer 2 it projects every hidden row through the left weights BEFORE
  summing over the neighbours, where the plain program sums first. The first two are identities of the extended
  reals once the degree is a nonzero real number. The third exchanges a finite sum with a product and is an identity
  of real numbers; the hidden rows are real because the float inputs are (the precondition), a sum, product and
  maximum of reals being real (Proof/Algebra.lean). Changes of float format are the identity on the extended reals,
  and each tiled product is the whole product restricted to a block of rows.

  The value of the tiled program is read off its run block by block (Proof/KernelBody.lean: one element of a block;
  Proof/KernelBlocks.lean: the blocks tile the arrays; Proof/KernelHost.lean, Proof/KernelHost1.lean: what the host
  operations put in front of each region; Proof/KernelValue.lean: the substitution; Proof/KernelRun.lean: the run with
  the result array in its post); the value of the plain program is read off its run one operation at a time
  (Proof/RefValue.lean). The two index arrays both programs derive from the edge array are the same operations of it.
-/
import proofs.«175912_j5995774346006_2_alg».proof.Defs
import proofs.«175912_j5995774346006_2_alg».proof.Proof.Gen.Kernel
import proofs.«175912_j5995774346006_2_alg».proof.Proof.Gen.Kernel.Skeleton
import proofs.«175912_j5995774346006_2_alg».proof.Proof.Gen.Kernel.Launch
import proofs.«175912_j5995774346006_2_alg».proof.Proof.Gen.Kernel.Points
import proofs.«175912_j5995774346006_2_alg».proof.Proof.Gen.Kernel.Frame
import proofs.«175912_j5995774346006_2_alg».proof.Proof.Gen.KernelIdeal
import proofs.«175912_j5995774346006_2_alg».proof.Proof.Gen.KernelIdeal.Skeleton
import proofs.«175912_j5995774346006_2_alg».proof.Proof.Gen.KernelIdeal.Launch
import proofs.«175912_j5995774346006_2_alg».proof.Proof.Gen.KernelIdeal.Points
import proofs.«175912_j5995774346006_2_alg».proof.Proof.Gen.KernelIdeal.Frame
import proofs.«175912_j5995774346006_2_alg».proof.Proof.Gen.ReferenceIdeal
import proofs.«175912_j5995774346006_2_alg».proof.Proof.Gen.Pre_finite_inputs
import proofs.«175912_j5995774346006_2_alg».proof.Proof.Gen.ReferenceIdeal.Run
import proofs.«175912_j5995774346006_2_alg».proof.Proof.Gen.ReferenceIdeal.Read
import proofs.«175912_j5995774346006_2_alg».proof.Proof.FiniteInputs
import proofs.«175912_j5995774346006_2_alg».proof.Proof.Algebra
import proofs.«175912_j5995774346006_2_alg».proof.Proof.RefValue
import proofs.«175912_j5995774346006_2_alg».proof.Proof.KernelRun
import proofs.«175912_j5995774346006_2_alg».proof.Proof.KernelValue
import proofs.«175912_j5995774346006_2_alg».proof.Proof.KernelHost
import proofs.«175912_j5995774346006_2_alg».proof.Proof.KernelHost1
import Idealize.ShloMosaic.Adequacy
import Idealize.ShloMosaic.Init

noncomputable section

namespace Cert.Proof

open Idealize.ShloMosaic Idealize.ShloMosaic.TcCoe Idealize.SL.Sem

/-- The wrapped source indices are the same operations of the edge array in both programs. -/
theorem src_same (a1 : Cert.KernelIdeal.S2x800000.Idx → BitVec 32) :
    Cert.Sage.KHost.srcIK a1 = Cert.ReferenceIdeal.Read.val_main_v9 (F := Ideal) a1 := rfl

/-- The target indices are the same operations of the edge array in both programs. -/
theorem dst_same (a1 : Cert.KernelIdeal.S2x800000.Idx → BitVec 32) :
    Cert.Sage.KHost.dstIK a1 = Cert.ReferenceIdeal.Read.val_main_v12 (F := Ideal) a1 := rfl

section Kernel
open Cert.KernelIdeal Cert.KernelIdeal.Gen

/-- The tiled program's result array is `G` of its arguments. -/
theorem kernel_value (m : (ℓ : Loc nD τ sig) → Buf (Elt Ideal) ℓ) (ρ : Dev nD → PrngReg) (c : Dev nD) :
    (W4 m ρ c (Proc.devRef .tc main_v39) : S50000x128.Idx → EReal)
      = Cert.Sage.G (m ((c.tc : Thread nD τ).loc main_arg0))
          (Cert.Sage.KHost.srcIK (m ((c.tc : Thread nD τ).loc main_arg1))) (Cert.Sage.KHost.dstIK (m ((c.tc : Thread nD τ).loc main_arg1)))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  Cert.Sage.KValue.value_of_entries m ρ c _ _ _ _ _ _ _ _ _
    (Cert.Sage.KHost.V1_v24 m ρ c) (Cert.Sage.KHost.V1_v12 m ρ c) (Cert.Sage.KHost.V1_v13 m ρ c) (Cert.Sage.KHost.V1_v25 m ρ c)
    (Cert.Sage.KHost.V1_arg2 m ρ c) (Cert.Sage.KHost.V1_arg4 m ρ c) (Cert.Sage.KHost.V1_arg5 m ρ c)
    (Cert.Sage.KHost1.E1a m ρ c) (Cert.Sage.KHost1.E1b m ρ c) (Cert.Sage.KHost1.E1c m ρ c) (Cert.Sage.KHost1.E1d m ρ c) (Cert.Sage.KHost1.E1e m ρ c)

end Kernel

theorem frame_kernel : Cert.frame_Kernel := fun m ρ _ => Cert.Kernel.Gen.frame m ρ

theorem frame_kernelIdeal : Cert.frame_KernelIdeal := fun m ρ _ => Cert.KernelIdeal.Gen.frame m ρ

/-- The plain program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the arguments both programs end with the result array at `G` of the arguments: the tiled
    program by its run and `kernel_value`; the plain program's value `GR` equals `G` because the float arguments are real. -/
theorem algebraic : Cert.algebraic_KernelIdeal_ReferenceIdeal := by
  intro m ρ m' ρ' hpre hagree
  refine ⟨fun c => Cert.Sage.G (m ((c.tc : Thread Cert.KernelIdeal.nD Cert.KernelIdeal.τ).loc Cert.KernelIdeal.main_arg0))
      (Cert.Sage.KHost.srcIK (m ((c.tc : Thread Cert.KernelIdeal.nD Cert.KernelIdeal.τ).loc Cert.KernelIdeal.main_arg1)))
      (Cert.Sage.KHost.dstIK (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_value m ρ c), (h c).2⟩)
      (Cert.Sage.KRun.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    obtain ⟨r0, r2, r3, r4, r5, -, -⟩ := Cert.FiniteInputs.reals_of_finite _ _ _ _ _ _ _ _ (hpre c)
    rw [Cert.ReferenceIdeal.Read.val_main_v60_eq, h0, h1, h2, h3, h4, h5, h6, h7, Cert.Sage.Ref.ref_value,
      Cert.Sage.GR_eq_G _ _ _ _ _ _ _ _ _ r0 r2 r3 r4 r5, ← src_same, ← dst_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
